-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x8 : Shape := ⟨2, ![1048576, 8]⟩
abbrev S16x8 : Shape := ⟨2, ![16, 8]⟩
abbrev S16 : Shape := ⟨1, ![16]⟩
abbrev S16x16 : Shape := ⟨2, ![16, 16]⟩
abbrev S12x16 : Shape := ⟨2, ![12, 16]⟩
abbrev S12 : Shape := ⟨1, ![12]⟩
abbrev S8x12 : Shape := ⟨2, ![8, 12]⟩
abbrev S8 : Shape := ⟨1, ![8]⟩
abbrev S4x8 : Shape := ⟨2, ![4, 8]⟩
abbrev S4 : Shape := ⟨1, ![4]⟩
abbrev S4x4 : Shape := ⟨2, ![4, 4]⟩
abbrev S1x4 : Shape := ⟨2, ![1, 4]⟩
abbrev S1 : Shape := ⟨1, ![1]⟩
abbrev S_ : Shape := ⟨0, ![]⟩

class Facts : Prop where
  bcast_S_S1048576x8 : S_.BroadcastsInDim S1048576x8 (![] : Fin 0 → Fin S1048576x8.rank)
  reducesTo_S1048576x8_S_d0_1 : S1048576x8.ReducesTo [0, 1] S_
  h_S_ : 0 < S_.numel
  bcast_S_S16x8 : S_.BroadcastsInDim S16x8 (![] : Fin 0 → Fin S16x8.rank)
  reducesTo_S16x8_S_d0_1 : S16x8.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S12x16 : S_.BroadcastsInDim S12x16 (![] : Fin 0 → Fin S12x16.rank)
  reducesTo_S12x16_S_d0_1 : S12x16.ReducesTo [0, 1] S_
  bcast_S_S12 : S_.BroadcastsInDim S12 (![] : Fin 0 → Fin S12.rank)
  reducesTo_S12_S_d0 : S12.ReducesTo [0] S_
  bcast_S_S8x12 : S_.BroadcastsInDim S8x12 (![] : Fin 0 → Fin S8x12.rank)
  reducesTo_S8x12_S_d0_1 : S8x12.ReducesTo [0, 1] S_
  bcast_S_S8 : S_.BroadcastsInDim S8 (![] : Fin 0 → Fin S8.rank)
  reducesTo_S8_S_d0 : S8.ReducesTo [0] S_
  bcast_S_S4x8 : S_.BroadcastsInDim S4x8 (![] : Fin 0 → Fin S4x8.rank)
  reducesTo_S4x8_S_d0_1 : S4x8.ReducesTo [0, 1] S_
  bcast_S_S4 : S_.BroadcastsInDim S4 (![] : Fin 0 → Fin S4.rank)
  reducesTo_S4_S_d0 : S4.ReducesTo [0] S_
  bcast_S_S4x4 : S_.BroadcastsInDim S4x4 (![] : Fin 0 → Fin S4x4.rank)
  reducesTo_S4x4_S_d0_1 : S4x4.ReducesTo [0, 1] S_
  bcast_S_S1x4 : S_.BroadcastsInDim S1x4 (![] : Fin 0 → Fin S1x4.rank)
  reducesTo_S1x4_S_d0_1 : S1x4.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_arg25 : FVec F S1x4 .f32) (main_arg26 : FVec F S1 .f32) (main_v118 : IVec S_ 1) (main_v119 : FVec F S4 .f32) : IVec S_ 1 :=
  let main_cst_46 : FVec F S_ .f32 := constant S_ .f32 0x7F800000#32
  let main_v120 : FVec F S4 .f32 := broadcastInDim S4 ![] bcast_S_S4 main_cst_46
  let main_v121 : IVec S4 1 := cmpf .olt main_v119 main_v120
  let main_c_47 : IVec S_ 1 := constantI S_ 1 1#1
  let main_v122 : IVec S_ 1 := (fun x v => Host.reduce IntOp.andi x v reducesTo_S4_S_d0 h_S_) main_v121 main_c_47
  let main_v123 : IVec S_ 1 := andi main_v118 main_v122
  let main_v124 : FVec F S1x4 .f32 := Host.absf main_arg25
  let main_cst_48 : FVec F S_ .f32 := constant S_ .f32 0x7F800000#32
  let main_v125 : FVec F S1x4 .f32 := broadcastInDim S1x4 ![] bcast_S_S1x4 main_cst_48
  let main_v126 : IVec S1x4 1 := cmpf .olt main_v124 main_v125
  let main_c_49 : IVec S_ 1 := constantI S_ 1 1#1
  let main_v127 : IVec S_ 1 := (fun x v => Host.reduce IntOp.andi x v reducesTo_S1x4_S_d0_1 h_S_) main_v126 main_c_49
  let main_v128 : IVec S_ 1 := andi main_v123 main_v127
  let main_v129 : FVec F S1 .f32 := Host.absf main_arg26
  let main_cst_50 : FVec F S_ .f32 := constant S_ .f32 0x7F800000#32
  let main_v130 : FVec F S1 .f32 := broadcastInDim S1 ![] bcast_S_S1 main_cst_50
  let main_v131 : IVec S1 1 := cmpf .olt main_v129 main_v130
  let main_c_51 : IVec S_ 1 := constantI S_ 1 1#1
  let main_v132 : IVec S_ 1 := (fun x v => Host.reduce IntOp.andi x v reducesTo_S1_S_d0 h_S_) main_v131 main_c_51
  let main_v133 : IVec S_ 1 := andi main_v128 main_v132
  main_v133

def fn_part6 {F : FTy → Type} [FloatOps F] (main_arg21 : FVec F S4x4 .f32) (main_arg22 : FVec F S4 .f32) (main_arg23 : FVec F S4 .f32) (main_arg24 : FVec F S4 .f32) (main_arg25 : FVec F S1x4 .f32) (main_arg26 : FVec F S1 .f32) (main_v98 : IVec S_ 1) (main_v101 : IVec S4 1) (main_c_39 : IVec S_ 1) : IVec S_ 1 :=
  let main_v102 : IVec S_ 1 := (fun x v => Host.reduce IntOp.andi x v reducesTo_S4_S_d0 h_S_) main_v101 main_c_39
  let main_v103 : IVec S_ 1 := andi main_v98 main_v102
  let main_v104 : FVec F S4x4 .f32 := Host.absf main_arg21
  let main_cst_40 : FVec F S_ .f32 := constant S_ .f32 0x7F800000#32
  let main_v105 : FVec F S4x4 .f32 := broadcastInDim S4x4 ![] bcast_S_S4x4 main_cst_40
  let main_v106 : IVec S4x4 1 := cmpf .olt main_v104 main_v105
  let main_c_41 : IVec S_ 1 := constantI S_ 1 1#1
  let main_v107 : IVec S_ 1 := (fun x v => Host.reduce IntOp.andi x v reducesTo_S4x4_S_d0_1 h_S_) main_v106 main_c_41
  let main_v108 : IVec S_ 1 := andi main_v103 main_v107
  let main_v109 : FVec F S4 .f32 := Host.absf main_arg22
  let main_cst_42 : FVec F S_ .f32 := constant S_ .f32 0x7F800000#32
  let main_v110 : FVec F S4 .f32 := broadcastInDim S4 ![] bcast_S_S4 main_cst_42
  let main_v111 : IVec S4 1 := cmpf .olt main_v109 main_v110
  let main_c_43 : IVec S_ 1 := constantI S_ 1 1#1
  let main_v112 : IVec S_ 1 := (fun x v => Host.reduce IntOp.andi x v reducesTo_S4_S_d0 h_S_) main_v111 main_c_43
  let main_v113 : IVec S_ 1 := andi main_v108 main_v112
  let main_v114 : FVec F S4 .f32 := Host.absf main_arg23
  let main_cst_44 : FVec F S_ .f32 := constant S_ .f32 0x7F800000#32
  let main_v115 : FVec F S4 .f32 := broadcastInDim S4 ![] bcast_S_S4 main_cst_44
  let main_v116 : IVec S4 1 := cmpf .olt main_v114 main_v115
  let main_c_45 : IVec S_ 1 := constantI S_ 1 1#1
  let main_v117 : IVec S_ 1 := (fun x v => Host.reduce IntOp.andi x v reducesTo_S4_S_d0 h_S_) main_v116 main_c_45
  let main_v118 : IVec S_ 1 := andi main_v113 main_v117
  let main_v119 : FVec F S4 .f32 := Host.absf main_arg24
  fn_part7 (F := F) main_arg25 main_arg26 main_v118 main_v119

def fn_part5 {F : FTy → Type} [FloatOps F] (main_arg18 : FVec F S4 .f32) (main_arg19 : FVec F S4 .f32) (main_arg20 : FVec F S4 .f32) (main_arg21 : FVec F S4x4 .f32) (main_arg22 : FVec F S4 .f32) (main_arg23 : FVec F S4 .f32) (main_arg24 : FVec F S4 .f32) (main_arg25 : FVec F S1x4 .f32) (main_arg26 : FVec F S1 .f32) (main_v83 : IVec S_ 1) (main_v84 : FVec F S4x8 .f32) (main_cst_32 : FVec F S_ .f32) : IVec S_ 1 :=
  let main_v85 : FVec F S4x8 .f32 := broadcastInDim S4x8 ![] bcast_S_S4x8 main_cst_32
  let main_v86 : IVec S4x8 1 := cmpf .olt main_v84 main_v85
  let main_c_33 : IVec S_ 1 := constantI S_ 1 1#1
  let main_v87 : IVec S_ 1 := (fun x v => Host.reduce IntOp.andi x v reducesTo_S4x8_S_d0_1 h_S_) main_v86 main_c_33
  let main_v88 : IVec S_ 1 := andi main_v83 main_v87
  let main_v89 : FVec F S4 .f32 := Host.absf main_arg18
  let main_cst_34 : FVec F S_ .f32 := constant S_ .f32 0x7F800000#32
  let main_v90 : FVec F S4 .f32 := broadcastInDim S4 ![] bcast_S_S4 main_cst_34
  let main_v91 : IVec S4 1 := cmpf .olt main_v89 main_v90
  let main_c_35 : IVec S_ 1 := constantI S_ 1 1#1
  let main_v92 : IVec S_ 1 := (fun x v => Host.reduce IntOp.andi x v reducesTo_S4_S_d0 h_S_) main_v91 main_c_35
  let main_v93 : IVec S_ 1 := andi main_v88 main_v92
  let main_v94 : FVec F S4 .f32 := Host.absf main_arg19
  let main_cst_36 : FVec F S_ .f32 := constant S_ .f32 0x7F800000#32
  let main_v95 : FVec F S4 .f32 := broadcastInDim S4 ![] bcast_S_S4 main_cst_36
  let main_v96 : IVec S4 1 := cmpf .olt main_v94 main_v95
  let main_c_37 : IVec S_ 1 := constantI S_ 1 1#1
  let main_v97 : IVec S_ 1 := (fun x v => Host.reduce IntOp.andi x v reducesTo_S4_S_d0 h_S_) main_v96 main_c_37
  let main_v98 : IVec S_ 1 := andi main_v93 main_v97
  let main_v99 : FVec F S4 .f32 := Host.absf main_arg20
  let main_cst_38 : FVec F S_ .f32 := constant S_ .f32 0x7F800000#32
  let main_v100 : FVec F S4 .f32 := broadcastInDim S4 ![] bcast_S_S4 main_cst_38
  let main_v101 : IVec S4 1 := cmpf .olt main_v99 main_v100
  let main_c_39 : IVec S_ 1 := constantI S_ 1 1#1
  fn_part6 (F := F) main_arg21 main_arg22 main_arg23 main_arg24 main_arg25 main_arg26 main_v98 main_v101 main_c_39

def fn_part4 {F : FTy → Type} [FloatOps F] (main_arg14 : FVec F S8 .f32) (main_arg15 : FVec F S8 .f32) (main_arg16 : FVec F S8 .f32) (main_arg17 : FVec F S4x8 .f32) (main_arg18 : FVec F S4 .f32) (main_arg19 : FVec F S4 .f32) (main_arg20 : FVec F S4 .f32) (main_arg21 : FVec F S4x4 .f32) (main_arg22 : FVec F S4 .f32) (main_arg23 : FVec F S4 .f32) (main_arg24 : FVec F S4 .f32) (main_arg25 : FVec F S1x4 .f32) (main_arg26 : FVec F S1 .f32) (main_v63 : IVec S_ 1) (main_v67 : IVec S_ 1) : IVec S_ 1 :=
  let main_v68 : IVec S_ 1 := andi main_v63 main_v67
  let main_v69 : FVec F S8 .f32 := Host.absf main_arg14
  let main_cst_26 : FVec F S_ .f32 := constant S_ .f32 0x7F800000#32
  let main_v70 : FVec F S8 .f32 := broadcastInDim S8 ![] bcast_S_S8 main_cst_26
  let main_v71 : IVec S8 1 := cmpf .olt main_v69 main_v70
  let main_c_27 : IVec S_ 1 := constantI S_ 1 1#1
  let main_v72 : IVec S_ 1 := (fun x v => Host.reduce IntOp.andi x v reducesTo_S8_S_d0 h_S_) main_v71 main_c_27
  let main_v73 : IVec S_ 1 := andi main_v68 main_v72
  let main_v74 : FVec F S8 .f32 := Host.absf main_arg15
  let main_cst_28 : FVec F S_ .f32 := constant S_ .f32 0x7F800000#32
  let main_v75 : FVec F S8 .f32 := broadcastInDim S8 ![] bcast_S_S8 main_cst_28
  let main_v76 : IVec S8 1 := cmpf .olt main_v74 main_v75
  let main_c_29 : IVec S_ 1 := constantI S_ 1 1#1
  let main_v77 : IVec S_ 1 := (fun x v => Host.reduce IntOp.andi x v reducesTo_S8_S_d0 h_S_) main_v76 main_c_29
  let main_v78 : IVec S_ 1 := andi main_v73 main_v77
  let main_v79 : FVec F S8 .f32 := Host.absf main_arg16
  let main_cst_30 : FVec F S_ .f32 := constant S_ .f32 0x7F800000#32
  let main_v80 : FVec F S8 .f32 := broadcastInDim S8 ![] bcast_S_S8 main_cst_30
  let main_v81 : IVec S8 1 := cmpf .olt main_v79 main_v80
  let main_c_31 : IVec S_ 1 := constantI S_ 1 1#1
  let main_v82 : IVec S_ 1 := (fun x v => Host.reduce IntOp.andi x v reducesTo_S8_S_d0 h_S_) main_v81 main_c_31
  let main_v83 : IVec S_ 1 := andi main_v78 main_v82
  let main_v84 : FVec F S4x8 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_v83 main_v84 main_cst_32

def fn_part3 {F : FTy → Type} [FloatOps F] (main_arg11 : FVec F S12 .f32) (main_arg12 : FVec F S12 .f32) (main_arg13 : FVec F S8x12 .f32) (main_arg14 : FVec F S8 .f32) (main_arg15 : FVec F S8 .f32) (main_arg16 : FVec F S8 .f32) (main_arg17 : FVec F S4x8 .f32) (main_arg18 : FVec F S4 .f32) (main_arg19 : FVec F S4 .f32) (main_arg20 : FVec F S4 .f32) (main_arg21 : FVec F S4x4 .f32) (main_arg22 : FVec F S4 .f32) (main_arg23 : FVec F S4 .f32) (main_arg24 : FVec F S4 .f32) (main_arg25 : FVec F S1x4 .f32) (main_arg26 : FVec F S1 .f32) (main_v48 : IVec S_ 1) (main_v49 : FVec F S12 .f32) (main_v50 : FVec F S12 .f32) : IVec S_ 1 :=
  let main_v51 : IVec S12 1 := cmpf .olt main_v49 main_v50
  let main_c_19 : IVec S_ 1 := constantI S_ 1 1#1
  let main_v52 : IVec S_ 1 := (fun x v => Host.reduce IntOp.andi x v reducesTo_S12_S_d0 h_S_) main_v51 main_c_19
  let main_v53 : IVec S_ 1 := andi main_v48 main_v52
  let main_v54 : FVec F S12 .f32 := Host.absf main_arg11
  let main_cst_20 : FVec F S_ .f32 := constant S_ .f32 0x7F800000#32
  let main_v55 : FVec F S12 .f32 := broadcastInDim S12 ![] bcast_S_S12 main_cst_20
  let main_v56 : IVec S12 1 := cmpf .olt main_v54 main_v55
  let main_c_21 : IVec S_ 1 := constantI S_ 1 1#1
  let main_v57 : IVec S_ 1 := (fun x v => Host.reduce IntOp.andi x v reducesTo_S12_S_d0 h_S_) main_v56 main_c_21
  let main_v58 : IVec S_ 1 := andi main_v53 main_v57
  let main_v59 : FVec F S12 .f32 := Host.absf main_arg12
  let main_cst_22 : FVec F S_ .f32 := constant S_ .f32 0x7F800000#32
  let main_v60 : FVec F S12 .f32 := broadcastInDim S12 ![] bcast_S_S12 main_cst_22
  let main_v61 : IVec S12 1 := cmpf .olt main_v59 main_v60
  let main_c_23 : IVec S_ 1 := constantI S_ 1 1#1
  let main_v62 : IVec S_ 1 := (fun x v => Host.reduce IntOp.andi x v reducesTo_S12_S_d0 h_S_) main_v61 main_c_23
  let main_v63 : IVec S_ 1 := andi main_v58 main_v62
  let main_v64 : FVec F S8x12 .f32 := Host.absf main_arg13
  let main_cst_24 : FVec F S_ .f32 := constant S_ .f32 0x7F800000#32
  let main_v65 : FVec F S8x12 .f32 := broadcastInDim S8x12 ![] bcast_S_S8x12 main_cst_24
  let main_v66 : IVec S8x12 1 := cmpf .olt main_v64 main_v65
  let main_c_25 : IVec S_ 1 := constantI S_ 1 1#1
  let main_v67 : IVec S_ 1 := (fun x v => Host.reduce IntOp.andi x v reducesTo_S8x12_S_d0_1 h_S_) main_v66 main_c_25
  fn_part4 (F := F) main_arg14 main_arg15 main_arg16 main_arg17 main_arg18 main_arg19 main_arg20 main_arg21 main_arg22 main_arg23 main_arg24 main_arg25 main_arg26 main_v63 main_v67

def fn_part2 {F : FTy → Type} [FloatOps F] (main_arg7 : FVec F S16 .f32) (main_arg8 : FVec F S16 .f32) (main_arg9 : FVec F S12x16 .f32) (main_arg10 : FVec F S12 .f32) (main_arg11 : FVec F S12 .f32) (main_arg12 : FVec F S12 .f32) (main_arg13 : FVec F S8x12 .f32) (main_arg14 : FVec F S8 .f32) (main_arg15 : FVec F S8 .f32) (main_arg16 : FVec F S8 .f32) (main_arg17 : FVec F S4x8 .f32) (main_arg18 : FVec F S4 .f32) (main_arg19 : FVec F S4 .f32) (main_arg20 : FVec F S4 .f32) (main_arg21 : FVec F S4x4 .f32) (main_arg22 : FVec F S4 .f32) (main_arg23 : FVec F S4 .f32) (main_arg24 : FVec F S4 .f32) (main_arg25 : FVec F S1x4 .f32) (main_arg26 : FVec F S1 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S12x16 .f32 := Host.absf main_arg9
  let main_cst_16 : FVec F S_ .f32 := constant S_ .f32 0x7F800000#32
  let main_v45 : FVec F S12x16 .f32 := broadcastInDim S12x16 ![] bcast_S_S12x16 main_cst_16
  let main_v46 : IVec S12x16 1 := cmpf .olt main_v44 main_v45
  let main_c_17 : IVec S_ 1 := constantI S_ 1 1#1
  let main_v47 : IVec S_ 1 := (fun x v => Host.reduce IntOp.andi x v reducesTo_S12x16_S_d0_1 h_S_) main_v46 main_c_17
  let main_v48 : IVec S_ 1 := andi main_v43 main_v47
  let main_v49 : FVec F S12 .f32 := Host.absf main_arg10
  let main_cst_18 : FVec F S_ .f32 := constant S_ .f32 0x7F800000#32
  let main_v50 : FVec F S12 .f32 := broadcastInDim S12 ![] bcast_S_S12 main_cst_18
  fn_part3 (F := F) main_arg11 main_arg12 main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg4 : FVec F S16 .f32) (main_arg5 : FVec F S16x16 .f32) (main_arg6 : FVec F S16 .f32) (main_arg7 : FVec F S16 .f32) (main_arg8 : FVec F S16 .f32) (main_arg9 : FVec F S12x16 .f32) (main_arg10 : FVec F S12 .f32) (main_arg11 : FVec F S12 .f32) (main_arg12 : FVec F S12 .f32) (main_arg13 : FVec F S8x12 .f32) (main_arg14 : FVec F S8 .f32) (main_arg15 : FVec F S8 .f32) (main_arg16 : FVec F S8 .f32) (main_arg17 : FVec F S4x8 .f32) (main_arg18 : FVec F S4 .f32) (main_arg19 : FVec F S4 .f32) (main_arg20 : FVec F S4 .f32) (main_arg21 : FVec F S4x4 .f32) (main_arg22 : FVec F S4 .f32) (main_arg23 : FVec F S4 .f32) (main_arg24 : FVec F S4 .f32) (main_arg25 : FVec F S1x4 .f32) (main_arg26 : FVec F S1 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x16 .f32 := Host.absf main_arg5
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S1048576x8 .f32) (main_arg1 : FVec F S16x8 .f32) (main_arg2 : FVec F S16 .f32) (main_arg3 : FVec F S16 .f32) (main_arg4 : FVec F S16 .f32) (main_arg5 : FVec F S16x16 .f32) (main_arg6 : FVec F S16 .f32) (main_arg7 : FVec F S16 .f32) (main_arg8 : FVec F S16 .f32) (main_arg9 : FVec F S12x16 .f32) (main_arg10 : FVec F S12 .f32) (main_arg11 : FVec F S12 .f32) (main_arg12 : FVec F S12 .f32) (main_arg13 : FVec F S8x12 .f32) (main_arg14 : FVec F S8 .f32) (main_arg15 : FVec F S8 .f32) (main_arg16 : FVec F S8 .f32) (main_arg17 : FVec F S4x8 .f32) (main_arg18 : FVec F S4 .f32) (main_arg19 : FVec F S4 .f32) (main_arg20 : FVec F S4 .f32) (main_arg21 : FVec F S4x4 .f32) (main_arg22 : FVec F S4 .f32) (main_arg23 : FVec F S4 .f32) (main_arg24 : FVec F S4 .f32) (main_arg25 : FVec F S1x4 .f32) (main_arg26 : FVec F S1 .f32) : IVec S_ 1 :=
  let main_v0 : FVec F S1048576x8 .f32 := Host.absf main_arg0
  let main_cst : FVec F S_ .f32 := constant S_ .f32 0x7F800000#32
  let main_v1 : FVec F S1048576x8 .f32 := broadcastInDim S1048576x8 ![] bcast_S_S1048576x8 main_cst
  let main_v2 : IVec S1048576x8 1 := cmpf .olt main_v0 main_v1
  let main_c : IVec S_ 1 := constantI S_ 1 1#1
  let main_v3 : IVec S_ 1 := (fun x v => Host.reduce IntOp.andi x v reducesTo_S1048576x8_S_d0_1 h_S_) main_v2 main_c
  let main_v4 : FVec F S16x8 .f32 := Host.absf main_arg1
  let main_cst_0 : FVec F S_ .f32 := constant S_ .f32 0x7F800000#32
  let main_v5 : FVec F S16x8 .f32 := broadcastInDim S16x8 ![] bcast_S_S16x8 main_cst_0
  let main_v6 : IVec S16x8 1 := cmpf .olt main_v4 main_v5
  let main_c_1 : IVec S_ 1 := constantI S_ 1 1#1
  let main_v7 : IVec S_ 1 := (fun x v => Host.reduce IntOp.andi x v reducesTo_S16x8_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S1048576x8 : Shape := ⟨2, ![1048576, 8]⟩
abbrev S16x8 : Shape := ⟨2, ![16, 8]⟩
abbrev S16 : Shape := ⟨1, ![16]⟩
abbrev S16x16 : Shape := ⟨2, ![16, 16]⟩
abbrev S12x16 : Shape := ⟨2, ![12, 16]⟩
abbrev S12 : Shape := ⟨1, ![12]⟩
abbrev S8x12 : Shape := ⟨2, ![8, 12]⟩
abbrev S8 : Shape := ⟨1, ![8]⟩
abbrev S4x8 : Shape := ⟨2, ![4, 8]⟩
abbrev S4 : Shape := ⟨1, ![4]⟩
abbrev S4x4 : Shape := ⟨2, ![4, 4]⟩
abbrev S1x4 : Shape := ⟨2, ![1, 4]⟩
abbrev S1 : Shape := ⟨1, ![1]⟩
abbrev S1x16 : Shape := ⟨2, ![1, 16]⟩
abbrev S1x12 : Shape := ⟨2, ![1, 12]⟩
abbrev S1x8 : Shape := ⟨2, ![1, 8]⟩
abbrev S1x1 : Shape := ⟨2, ![1, 1]⟩
abbrev S1048576x1 : Shape := ⟨2, ![1048576, 1]⟩
abbrev S8192x8 : Shape := ⟨2, ![8192, 8]⟩
abbrev S8192x1 : Shape := ⟨2, ![8192, 1]⟩
abbrev S8x16 : Shape := ⟨2, ![8, 16]⟩
abbrev S8192x16 : Shape := ⟨2, ![8192, 16]⟩
abbrev S16x12 : Shape := ⟨2, ![16, 12]⟩
abbrev S8192x12 : Shape := ⟨2, ![8192, 12]⟩
abbrev S12x8 : Shape := ⟨2, ![12, 8]⟩
abbrev S8x4 : Shape := ⟨2, ![8, 4]⟩
abbrev S8192x4 : Shape := ⟨2, ![8192, 4]⟩
abbrev S4x1 : Shape := ⟨2, ![4, 1]⟩

abbrev nBuf : Space → Nat
  | .hbm => 47
  | .vmem => 30
  | .smem => 0
  | _ => 0

abbrev bufTy : (tb : Table) → Fin (tcTables nBuf tb) → BufTy
  | .hbm, ⟨0, _⟩ => ⟨S1048576x8, .f32⟩
  | .hbm, ⟨1, _⟩ => ⟨S16x8, .f32⟩
  | .hbm, ⟨2, _⟩ => ⟨S16, .f32⟩
  | .hbm, ⟨3, _⟩ => ⟨S16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S12x16, .f32⟩
  | .hbm, ⟨10, _⟩ => ⟨S12, .f32⟩
  | .hbm, ⟨11, _⟩ => ⟨S12, .f32⟩
  | .hbm, ⟨12, _⟩ => ⟨S12, .f32⟩
  | .hbm, ⟨13, _⟩ => ⟨S8x12, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S4x8, .f32⟩
  | .hbm, ⟨18, _⟩ => ⟨S4, .f32⟩
  | .hbm, ⟨19, _⟩ => ⟨S4, .f32⟩
  | .hbm, ⟨20, _⟩ => ⟨S4, .f32⟩
  | .hbm, ⟨21, _⟩ => ⟨S4x4, .f32⟩
  | .hbm, ⟨22, _⟩ => ⟨S4, .f32⟩
  | .hbm, ⟨23, _⟩ => ⟨S4, .f32⟩
  | .hbm, ⟨24, _⟩ => ⟨S4, .f32⟩
  | .hbm, ⟨25, _⟩ => ⟨S1x4, .f32⟩
  | .hbm, ⟨26, _⟩ => ⟨S1, .f32⟩
  | .hbm, ⟨27, _⟩ => ⟨S1x16, .f32⟩
  | .hbm, ⟨28, _⟩ => ⟨S1x16, .f32⟩
  | .hbm, ⟨29, _⟩ => ⟨S1x16, .f32⟩
  | .hbm, ⟨30, _⟩ => ⟨S1x16, .f32⟩
  | .hbm, ⟨31, _⟩ => ⟨S1x16, .f32⟩
  | .hbm, ⟨32, _⟩ => ⟨S1x16, .f32⟩
  | .hbm, ⟨33, _⟩ => ⟨S1x12, .f32⟩
  | .hbm, ⟨34, _⟩ => ⟨S1x12, .f32⟩
  | .hbm, ⟨35, _⟩ => ⟨S1x12, .f32⟩
  | .hbm, ⟨36, _⟩ => ⟨S1x8, .f32⟩
  | .hbm, ⟨37, _⟩ => ⟨S1x8, .f32⟩
  | .hbm, ⟨38, _⟩ => ⟨S1x8, .f32⟩
  | .hbm, ⟨39, _⟩ => ⟨S1x4, .f32⟩
  | .hbm, ⟨40, _⟩ => ⟨S1x4, .f32⟩
  | .hbm, ⟨41, _⟩ => ⟨S1x4, .f32⟩
  | .hbm, ⟨42, _⟩ => ⟨S1x4, .f32⟩
  | .hbm, ⟨43, _⟩ => ⟨S1x4, .f32⟩
  | .hbm, ⟨44, _⟩ => ⟨S1x4, .f32⟩
  | .hbm, ⟨45, _⟩ => ⟨S1x1, .f32⟩
  | .hbm, ⟨46, _⟩ => ⟨S1048576x1, .f32⟩
  | .local _ .vmem, ⟨0, _⟩ => ⟨S8192x8, .f32⟩
  | .local _ .vmem, ⟨1, _⟩ => ⟨S8192x8, .f32⟩
  | .local _ .vmem, ⟨2, _⟩ => ⟨S16x8, .f32⟩
  | .local _ .vmem, ⟨3, _⟩ => ⟨S1x16, .f32⟩
  | .local _ .vmem, ⟨4, _⟩ => ⟨S1x16, .f32⟩
  | .local _ .vmem, ⟨5, _⟩ => ⟨S1x16, .f32⟩
  | .local _ .vmem, ⟨6, _⟩ => ⟨S16x16, .f32⟩
  | .local _ .vmem, ⟨7, _⟩ => ⟨S1x16, .f32⟩
  | .local _ .vmem, ⟨8, _⟩ => ⟨S1x16, .f32⟩
  | .local _ .vmem, ⟨9, _⟩ => ⟨S1x16, .f32⟩
  | .local _ .vmem, ⟨10, _⟩ => ⟨S12x16, .f32⟩
  | .local _ .vmem, ⟨11, _⟩ => ⟨S1x12, .f32⟩
  | .local _ .vmem, ⟨12, _⟩ => ⟨S1x12, .f32⟩
  | .local _ .vmem, ⟨13, _⟩ => ⟨S1x12, .f32⟩
  | .local _ .vmem, ⟨14, _⟩ => ⟨S8x12, .f32⟩
  | .local _ .vmem, ⟨15, _⟩ => ⟨S1x8, .f32⟩
  | .local _ .vmem, ⟨16, _⟩ => ⟨S1x8, .f32⟩
  | .local _ .vmem, ⟨17, _⟩ => ⟨S1x8, .f32⟩
  | .local _ .vmem, ⟨18, _⟩ => ⟨S4x8, .f32⟩
  | .local _ .vmem, ⟨19, _⟩ => ⟨S1x4, .f32⟩
  | .local _ .vmem, ⟨20, _⟩ => ⟨S1x4, .f32⟩
  | .local _ .vmem, ⟨21, _⟩ => ⟨S1x4, .f32⟩
  | .local _ .vmem, ⟨22, _⟩ => ⟨S4x4, .f32⟩
  | .local _ .vmem, ⟨23, _⟩ => ⟨S1x4, .f32⟩
  | .local _ .vmem, ⟨24, _⟩ => ⟨S1x4, .f32⟩
  | .local _ .vmem, ⟨25, _⟩ => ⟨S1x4, .f32⟩
  | .local _ .vmem, ⟨26, _⟩ => ⟨S1x4, .f32⟩
  | .local _ .vmem, ⟨27, _⟩ => ⟨S1x1, .f32⟩
  | .local _ .vmem, ⟨28, _⟩ => ⟨S8192x1, .f32⟩
  | .local _ .vmem, ⟨29, _⟩ => ⟨S8192x1, .f32⟩
  | _, _ => ⟨S1048576x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg26_0 : Ref sig .tc := ⟨.vmem, 27, rfl⟩
abbrev cc0_stg27_0 : Ref sig .tc := ⟨.vmem, 28, rfl⟩
abbrev cc0_stg27_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem26_0 : DmaSem sig := 27
abbrev cc0_sem27_0 : DmaSem sig := 28
abbrev cc0_sem27_1 : DmaSem sig := 29

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S12x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x12 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x12 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x12 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x12 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x8 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x4 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x4 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x4 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S4x4 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x4 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x4 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x4 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x4 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x1 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 2 → Memref sig .tc .vmem S8192x1 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

class Facts₀ : Prop where
  shapeCasts_S16_S1x16 : S16.ShapeCasts S1x16
  shapeCasts_S12_S1x12 : S12.ShapeCasts S1x12
  shapeCasts_S8_S1x8 : S8.ShapeCasts S1x8
  shapeCasts_S4_S1x4 : S4.ShapeCasts S1x4
  shapeCasts_S1_S1x1 : S1.ShapeCasts S1x1
  inb_S8192x8_S8192x8_0_0 : ∀ a, (![0, 0] : Fin 2 → Nat) a + S8192x8.size a ≤ S8192x8.size a
  h_S8192x8 : 0 < S8192x8.numel
  inb_S16x8_S16x8_0_0 : ∀ a, (![0, 0] : Fin 2 → Nat) a + S16x8.size a ≤ S16x8.size a
  h_S16x8 : 0 < S16x8.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  transposes_S16x8_p1_0_S8x16 : S16x8.Transposes [1, 0] S8x16
  broadcasts_S1x16_S8192x16 : S1x16.Broadcasts S8192x16
  inb_S16x16_S16x16_0_0 : ∀ a, (![0, 0] : Fin 2 → Nat) a + S16x16.size a ≤ S16x16.size a
  h_S16x16 : 0 < S16x16.numel
  transposes_S16x16_p1_0_S16x16 : S16x16.Transposes [1, 0] S16x16
  inb_S12x16_S12x16_0_0 : ∀ a, (![0, 0] : Fin 2 → Nat) a + S12x16.size a ≤ S12x16.size a
  h_S12x16 : 0 < S12x16.numel
  inb_S1x12_S1x12_0_0 : ∀ a, (![0, 0] : Fin 2 → Nat) a + S1x12.size a ≤ S1x12.size a
  h_S1x12 : 0 < S1x12.numel
  shapeCasts_S1x12_S1x12 : S1x12.ShapeCasts S1x12
  transposes_S12x16_p1_0_S16x12 : S12x16.Transposes [1, 0] S16x12
  broadcasts_S1x12_S8192x12 : S1x12.Broadcasts S8192x12
  inb_S8x12_S8x12_0_0 : ∀ a, (![0, 0] : Fin 2 → Nat) a + S8x12.size a ≤ S8x12.size a
  h_S8x12 : 0 < S8x12.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  transposes_S8x12_p1_0_S12x8 : S8x12.Transposes [1, 0] S12x8
  broadcasts_S1x8_S8192x8 : S1x8.Broadcasts S8192x8
  inb_S4x8_S4x8_0_0 : ∀ a, (![0, 0] : Fin 2 → Nat) a + S4x8.size a ≤ S4x8.size a
  h_S4x8 : 0 < S4x8.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  transposes_S4x8_p1_0_S8x4 : S4x8.Transposes [1, 0] S8x4
  broadcasts_S1x4_S8192x4 : S1x4.Broadcasts S8192x4
  inb_S4x4_S4x4_0_0 : ∀ a, (![0, 0] : Fin 2 → Nat) a + S4x4.size a ≤ S4x4.size a
  h_S4x4 : 0 < S4x4.numel
  transposes_S4x4_p1_0_S4x4 : S4x4.Transposes [1, 0] S4x4
  inb_S1x1_S1x1_0_0 : ∀ a, (![0, 0] : Fin 2 → Nat) a + S1x1.size a ≤ S1x1.size a
  h_S1x1 : 0 < S1x1.numel
  shapeCasts_S1x1_S1x1 : S1x1.ShapeCasts S1x1
  transposes_S1x4_p1_0_S4x1 : S1x4.Transposes [1, 0] S4x1
  broadcasts_S1x1_S8192x1 : S1x1.Broadcasts S8192x1
  inb_S8192x1_S8192x1_0_0 : ∀ a, (![0, 0] : Fin 2 → Nat) a + S8192x1.size a ≤ S8192x1.size a
  h_S8192x1 : 0 < S8192x1.numel
  dot_S8192x8_S8x16_S8192x16_1_0_0_1_n_n_wf : DotDims.WF S8192x8 S8x16 S8192x16 [1] [0] [0] [1] [] []
  dot_S8192x16_S16x16_S8192x16_1_0_0_1_n_n_wf : DotDims.WF S8192x16 S16x16 S8192x16 [1] [0] [0] [1] [] []
  dot_S8192x16_S16x12_S8192x12_1_0_0_1_n_n_wf : DotDims.WF S8192x16 S16x12 S8192x12 [1] [0] [0] [1] [] []
  dot_S8192x12_S12x8_S8192x8_1_0_0_1_n_n_wf : DotDims.WF S8192x12 S12x8 S8192x8 [1] [0] [0] [1] [] []
  dot_S8192x8_S8x4_S8192x4_1_0_0_1_n_n_wf : DotDims.WF S8192x8 S8x4 S8192x4 [1] [0] [0] [1] [] []
  dot_S8192x4_S4x4_S8192x4_1_0_0_1_n_n_wf : DotDims.WF S8192x4 S4x4 S8192x4 [1] [0] [0] [1] [] []
  dot_S8192x4_S4x1_S8192x1_1_0_0_1_n_n_wf : DotDims.WF S8192x4 S4x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x8.size a ≤ S1048576x8.size a
  hwx0_0 : ∀ i : grid0.Coords, EltTy.bits .f32 = 32 ∨ (Rect.block (s := S1048576x8) S8192x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x8.size a ≤ S16x8.size a
  hwx0_1 : ∀ i : grid0.Coords, EltTy.bits .f32 = 32 ∨ (Rect.block (s := S16x8) S16x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x16.size a ≤ S16x16.size a
  hwx0_5 : ∀ i : grid0.Coords, EltTy.bits .f32 = 32 ∨ (Rect.block (s := S16x16) S16x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x16.size a ≤ S1x16.size a
  hwx0_7 : ∀ i : grid0.Coords, EltTy.bits .f32 = 32 ∨ (Rect.block (s := S1x16) S1x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x16.size a ≤ S1x16.size a
  hwx0_8 : ∀ i : grid0.Coords, EltTy.bits .f32 = 32 ∨ (Rect.block (s := S1x16) S1x16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S12x16.size a ≤ S12x16.size a
  hwx0_9 : ∀ i : grid0.Coords, EltTy.bits .f32 = 32 ∨ (Rect.block (s := S12x16) S12x16.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x12.size a ≤ S1x12.size a
  hwx0_10 : ∀ i : grid0.Coords, EltTy.bits .f32 = 32 ∨ (Rect.block (s := S1x12) S1x12.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x12.size a ≤ S1x12.size a
  hwx0_11 : ∀ i : grid0.Coords, EltTy.bits .f32 = 32 ∨ (Rect.block (s := S1x12) S1x12.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x12.size a ≤ S1x12.size a
  hwx0_12 : ∀ i : grid0.Coords, EltTy.bits .f32 = 32 ∨ (Rect.block (s := S1x12) S1x12.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S8x12.size a ≤ S8x12.size a
  hwx0_13 : ∀ i : grid0.Coords, EltTy.bits .f32 = 32 ∨ (Rect.block (s := S8x12) S8x12.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x8.size a ≤ S1x8.size a
  hwx0_14 : ∀ i : grid0.Coords, EltTy.bits .f32 = 32 ∨ (Rect.block (s := S1x8) S1x8.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x8.size a ≤ S1x8.size a
  hwx0_15 : ∀ i : grid0.Coords, EltTy.bits .f32 = 32 ∨ (Rect.block (s := S1x8) S1x8.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x8.size a ≤ S1x8.size a
  hwx0_16 : ∀ i : grid0.Coords, EltTy.bits .f32 = 32 ∨ (Rect.block (s := S1x8) S1x8.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S4x8.size a ≤ S4x8.size a
  hwx0_17 : ∀ i : grid0.Coords, EltTy.bits .f32 = 32 ∨ (Rect.block (s := S4x8) S4x8.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x4.size a ≤ S1x4.size a
  hwx0_18 : ∀ i : grid0.Coords, EltTy.bits .f32 = 32 ∨ (Rect.block (s := S1x4) S1x4.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x4.size a ≤ S1x4.size a
  hwx0_19 : ∀ i : grid0.Coords, EltTy.bits .f32 = 32 ∨ (Rect.block (s := S1x4) S1x4.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x4.size a ≤ S1x4.size a
  hwx0_20 : ∀ i : grid0.Coords, EltTy.bits .f32 = 32 ∨ (Rect.block (s := S1x4) S1x4.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S4x4.size a ≤ S4x4.size a
  hwx0_21 : ∀ i : grid0.Coords, EltTy.bits .f32 = 32 ∨ (Rect.block (s := S4x4) S4x4.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x4.size a ≤ S1x4.size a
  hwx0_22 : ∀ i : grid0.Coords, EltTy.bits .f32 = 32 ∨ (Rect.block (s := S1x4) S1x4.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S1x4.size a ≤ S1x4.size a
  hwx0_23 : ∀ i : grid0.Coords, EltTy.bits .f32 = 32 ∨ (Rect.block (s := S1x4) S1x4.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S1x4.size a ≤ S1x4.size a
  hwx0_24 : ∀ i : grid0.Coords, EltTy.bits .f32 = 32 ∨ (Rect.block (s := S1x4) S1x4.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S1x4.size a ≤ S1x4.size a
  hwx0_25 : ∀ i : grid0.Coords, EltTy.bits .f32 = 32 ∨ (Rect.block (s := S1x4) S1x4.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S1x1.size a ≤ S1x1.size a
  hwx0_26 : ∀ i : grid0.Coords, EltTy.bits .f32 = 32 ∨ (Rect.block (s := S1x1) S1x1.size (cc0_transform_26 i) (hinb0_26 i)).WholeWords (EltTy.packing .f32)
  hstage0_27 : ∀ j, (stage0_27 j).IsWhole
  nbuf0_27 : grid0.bufCount reads0_27 false = 2
  hreads0_27 : ∀ i i' : grid0.Coords, (∀ a, reads0_27 a = true → i a = i' a) → cc0_transform_27 i = cc0_transform_27 i'
  hinb0_27 : ∀ (i : grid0.Coords) a, (cc0_transform_27 i a + 1) * S8192x1.size a ≤ S1048576x1.size a
  hwx0_27 : ∀ i : grid0.Coords, EltTy.bits .f32 = 32 ∨ (Rect.block (s := S1048576x1) S8192x1.size (cc0_transform_27 i) (hinb0_27 i)).WholeWords (EltTy.packing .f32)

variable [Facts₀]

def dot_S8192x8_S8x16_S8192x16_1_0_0_1_n_n : DotDims S8192x8 S8x16 S8192x16 where
  lhsContracting := [1]
  rhsContracting := [0]
  lhsNonContracting := [0]
  rhsNonContracting := [1]
  lhsBatch := []
  rhsBatch := []
  wf := dot_S8192x8_S8x16_S8192x16_1_0_0_1_n_n_wf
def dot_S8192x16_S16x16_S8192x16_1_0_0_1_n_n : DotDims S8192x16 S16x16 S8192x16 where
  lhsContracting := [1]
  rhsContracting := [0]
  lhsNonContracting := [0]
  rhsNonContracting := [1]
  lhsBatch := []
  rhsBatch := []
  wf := dot_S8192x16_S16x16_S8192x16_1_0_0_1_n_n_wf
def dot_S8192x16_S16x12_S8192x12_1_0_0_1_n_n : DotDims S8192x16 S16x12 S8192x12 where
  lhsContracting := [1]
  rhsContracting := [0]
  lhsNonContracting := [0]
  rhsNonContracting := [1]
  lhsBatch := []
  rhsBatch := []
  wf := dot_S8192x16_S16x12_S8192x12_1_0_0_1_n_n_wf
def dot_S8192x12_S12x8_S8192x8_1_0_0_1_n_n : DotDims S8192x12 S12x8 S8192x8 where
  lhsContracting := [1]
  rhsContracting := [0]
  lhsNonContracting := [0]
  rhsNonContracting := [1]
  lhsBatch := []
  rhsBatch := []
  wf := dot_S8192x12_S12x8_S8192x8_1_0_0_1_n_n_wf
def dot_S8192x8_S8x4_S8192x4_1_0_0_1_n_n : DotDims S8192x8 S8x4 S8192x4 where
  lhsContracting := [1]
  rhsContracting := [0]
  lhsNonContracting := [0]
  rhsNonContracting := [1]
  lhsBatch := []
  rhsBatch := []
  wf := dot_S8192x8_S8x4_S8192x4_1_0_0_1_n_n_wf
def dot_S8192x4_S4x4_S8192x4_1_0_0_1_n_n : DotDims S8192x4 S4x4 S8192x4 where
  lhsContracting := [1]
  rhsContracting := [0]
  lhsNonContracting := [0]
  rhsNonContracting := [1]
  lhsBatch := []
  rhsBatch := []
  wf := dot_S8192x4_S4x4_S8192x4_1_0_0_1_n_n_wf
def dot_S8192x4_S4x1_S8192x1_1_0_0_1_n_n : DotDims S8192x4 S4x1 S8192x1 where
  lhsContracting := [1]
  rhsContracting := [0]
  lhsNonContracting := [0]
  rhsNonContracting := [1]
  lhsBatch := []
  rhsBatch := []
  wf := dot_S8192x4_S4x1_S8192x1_1_0_0_1_n_n_wf

abbrev win0_0 : Pipeline.Window sig grid0 :=
  Pipeline.Window.ofSpec (Memref.whole main_arg0) S8192x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S16x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S12x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S1x12.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v7) S1x12.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v8) S1x12.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S8x12.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v9) S1x8.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v10) S1x8.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v11) S1x8.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S4x8.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v12) S1x4.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v13) S1x4.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v14) S1x4.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg21) S4x4.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v15) S1x4.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v16) S1x4.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v17) S1x4.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_arg25) S1x4.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v18) S1x1.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_v19) S8192x1.size cc0_transform_27 reads0_27 true false 2 stage0_27 sem0_27
    hrank0 hreads0_27 hinb0_27 nbuf0_27 (Memref.isWhole_whole _) hwx0_27 hstage0_27

abbrev win0 : Fin 28 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | ⟨_ + 28, h⟩ => absurd h (Nat.not_lt.2 (Nat.le_add_left _ _))
abbrev spec0 : Fin 28 → Pipeline.WinSpec sig grid0.rank := fun w => (win0 w).toWinSpec

class Facts : Prop extends Facts₀ where

variable [Facts]
-- ==== ReferenceIdeal.lean ====
abbrev S1048576x8 : Shape := ⟨2, ![1048576, 8]⟩
abbrev S16x8 : Shape := ⟨2, ![16, 8]⟩
abbrev S16 : Shape := ⟨1, ![16]⟩
abbrev S16x16 : Shape := ⟨2, ![16, 16]⟩
abbrev S12x16 : Shape := ⟨2, ![12, 16]⟩
abbrev S12 : Shape := ⟨1, ![12]⟩
abbrev S8x12 : Shape := ⟨2, ![8, 12]⟩
abbrev S8 : Shape := ⟨1, ![8]⟩
abbrev S4x8 : Shape := ⟨2, ![4, 8]⟩
abbrev S4 : Shape := ⟨1, ![4]⟩
abbrev S4x4 : Shape := ⟨2, ![4, 4]⟩
abbrev S1x4 : Shape := ⟨2, ![1, 4]⟩
abbrev S1 : Shape := ⟨1, ![1]⟩
abbrev S8x16 : Shape := ⟨2, ![8, 16]⟩
abbrev S1048576x16 : Shape := ⟨2, ![1048576, 16]⟩
abbrev S1x16 : Shape := ⟨2, ![1, 16]⟩
abbrev S_ : Shape := ⟨0, ![]⟩
abbrev S16x12 : Shape := ⟨2, ![16, 12]⟩
abbrev S1048576x12 : Shape := ⟨2, ![1048576, 12]⟩
abbrev S1x12 : Shape := ⟨2, ![1, 12]⟩
abbrev S12x8 : Shape := ⟨2, ![12, 8]⟩
abbrev S1x8 : Shape := ⟨2, ![1, 8]⟩
abbrev S8x4 : Shape := ⟨2, ![8, 4]⟩
abbrev S1048576x4 : Shape := ⟨2, ![1048576, 4]⟩
abbrev S4x1 : Shape := ⟨2, ![4, 1]⟩
abbrev S1048576x1 : Shape := ⟨2, ![1048576, 1]⟩
abbrev S1x1 : Shape := ⟨2, ![1, 1]⟩

abbrev nBuf : Space → Nat
  | .hbm => 192
  | .vmem => 0
  | .smem => 0
  | _ => 0

abbrev hbmTy0_0 (i : Nat) : BufTy := match i % 128 with
  | 0 => ⟨S1048576x8, .f32⟩
  | 1 => ⟨S16x8, .f32⟩
  | 2 => ⟨S16, .f32⟩
  | 3 => ⟨S16, .f32⟩
  | 4 => ⟨S16, .f32⟩
  | 5 => ⟨S16x16, .f32⟩
  | 6 => ⟨S16, .f32⟩
  | 7 => ⟨S16, .f32⟩
  | 8 => ⟨S16, .f32⟩
  | 9 => ⟨S12x16, .f32⟩
  | 10 => ⟨S12, .f32⟩
  | 11 => ⟨S12, .f32⟩
  | 12 => ⟨S12, .f32⟩
  | 13 => ⟨S8x12, .f32⟩
  | 14 => ⟨S8, .f32⟩
  | 15 => ⟨S8, .f32⟩
  | 16 => ⟨S8, .f32⟩
  | 17 => ⟨S4x8, .f32⟩
  | 18 => ⟨S4, .f32⟩
  | 19 => ⟨S4, .f32⟩
  | 20 => ⟨S4, .f32⟩
  | 21 => ⟨S4x4, .f32⟩
  | 22 => ⟨S4, .f32⟩
  | 23 => ⟨S4, .f32⟩
  | 24 => ⟨S4, .f32⟩
  | 25 => ⟨S1x4, .f32⟩
  | 26 => ⟨S1, .f32⟩
  | 27 => ⟨S8x16, .f32⟩
  | 28 => ⟨S1048576x16, .f32⟩
  | 29 => ⟨S1x16, .f32⟩
  | 30 => ⟨S1048576x16, .f32⟩
  | 31 => ⟨S1048576x16, .f32⟩
  | 32 => ⟨S1048576x16, .f32⟩
  | 33 => ⟨S1x16, .f32⟩
  | 34 => ⟨S1048576x16, .f32⟩
  | 35 => ⟨S1048576x16, .f32⟩
  | 36 => ⟨S1x16, .f32⟩
  | 37 => ⟨S1048576x16, .f32⟩
  | 38 => ⟨S1048576x16, .f32⟩
  | 39 => ⟨S_, .f32⟩
  | 40 => ⟨S_, .f32⟩
  | 41 => ⟨S_, .f32⟩
  | 42 => ⟨S16x16, .f32⟩
  | 43 => ⟨S16x16, .f32⟩
  | 44 => ⟨S_, .f32⟩
  | 45 => ⟨S16x16, .f32⟩
  | 46 => ⟨S16x16, .f32⟩
  | 47 => ⟨S_, .f32⟩
  | 48 => ⟨S_, .f32⟩
  | 49 => ⟨S_, .f32⟩
  | 50 => ⟨S16, .f32⟩
  | 51 => ⟨S16, .f32⟩
  | 52 => ⟨S_, .f32⟩
  | 53 => ⟨S16, .f32⟩
  | 54 => ⟨S16, .f32⟩
  | 55 => ⟨S16x16, .f32⟩
  | 56 => ⟨S1048576x16, .f32⟩
  | 57 => ⟨S1x16, .f32⟩
  | 58 => ⟨S1048576x16, .f32⟩
  | 59 => ⟨S1048576x16, .f32⟩
  | 60 => ⟨S1048576x16, .f32⟩
  | 61 => ⟨S1x16, .f32⟩
  | 62 => ⟨S1048576x16, .f32⟩
  | 63 => ⟨S1048576x16, .f32⟩
  | 64 => ⟨S1x16, .f32⟩
  | 65 => ⟨S1048576x16, .f32⟩
  | 66 => ⟨S1048576x16, .f32⟩
  | 67 => ⟨S_, .f32⟩
  | 68 => ⟨S_, .f32⟩
  | 69 => ⟨S_, .f32⟩
  | 70 => ⟨S12x16, .f32⟩
  | 71 => ⟨S12x16, .f32⟩
  | 72 => ⟨S_, .f32⟩
  | 73 => ⟨S12x16, .f32⟩
  | 74 => ⟨S12x16, .f32⟩
  | 75 => ⟨S_, .f32⟩
  | 76 => ⟨S_, .f32⟩
  | 77 => ⟨S_, .f32⟩
  | 78 => ⟨S12, .f32⟩
  | 79 => ⟨S12, .f32⟩
  | 80 => ⟨S_, .f32⟩
  | 81 => ⟨S12, .f32⟩
  | 82 => ⟨S12, .f32⟩
  | 83 => ⟨S16x12, .f32⟩
  | 84 => ⟨S1048576x12, .f32⟩
  | 85 => ⟨S1x12, .f32⟩
  | 86 => ⟨S1048576x12, .f32⟩
  | 87 => ⟨S1048576x12, .f32⟩
  | 88 => ⟨S1048576x12, .f32⟩
  | 89 => ⟨S1x12, .f32⟩
  | 90 => ⟨S1048576x12, .f32⟩
  | 91 => ⟨S1048576x12, .f32⟩
  | 92 => ⟨S1x12, .f32⟩
  | 93 => ⟨S1048576x12, .f32⟩
  | 94 => ⟨S1048576x12, .f32⟩
  | 95 => ⟨S_, .f32⟩
  | 96 => ⟨S_, .f32⟩
  | 97 => ⟨S_, .f32⟩
  | 98 => ⟨S8x12, .f32⟩
  | 99 => ⟨S8x12, .f32⟩
  | 100 => ⟨S_, .f32⟩
  | 101 => ⟨S8x12, .f32⟩
  | 102 => ⟨S8x12, .f32⟩
  | 103 => ⟨S_, .f32⟩
  | 104 => ⟨S_, .f32⟩
  | 105 => ⟨S_, .f32⟩
  | 106 => ⟨S8, .f32⟩
  | 107 => ⟨S8, .f32⟩
  | 108 => ⟨S_, .f32⟩
  | 109 => ⟨S8, .f32⟩
  | 110 => ⟨S8, .f32⟩
  | 111 => ⟨S12x8, .f32⟩
  | 112 => ⟨S1048576x8, .f32⟩
  | 113 => ⟨S1x8, .f32⟩
  | 114 => ⟨S1048576x8, .f32⟩
  | 115 => ⟨S1048576x8, .f32⟩
  | 116 => ⟨S1048576x8, .f32⟩
  | 117 => ⟨S1x8, .f32⟩
  | 118 => ⟨S1048576x8, .f32⟩
  | 119 => ⟨S1048576x8, .f32⟩
  | 120 => ⟨S1x8, .f32⟩
  | 121 => ⟨S1048576x8, .f32⟩
  | 122 => ⟨S1048576x8, .f32⟩
  | 123 => ⟨S_, .f32⟩
  | 124 => ⟨S_, .f32⟩
  | 125 => ⟨S_, .f32⟩
  | 126 => ⟨S4x8, .f32⟩
  | 127 => ⟨S4x8, .f32⟩
  | _ => ⟨S1048576x8, .f32⟩

abbrev hbmTy0_1 (i : Nat) : BufTy := match i % 128 with
  | 0 => ⟨S_, .f32⟩
  | 1 => ⟨S4x8, .f32⟩
  | 2 => ⟨S4x8, .f32⟩
  | 3 => ⟨S_, .f32⟩
  | 4 => ⟨S_, .f32⟩
  | 5 => ⟨S_, .f32⟩
  | 6 => ⟨S4, .f32⟩
  | 7 => ⟨S4, .f32⟩
  | 8 => ⟨S_, .f32⟩
  | 9 => ⟨S4, .f32⟩
  | 10 => ⟨S4, .f32⟩
  | 11 => ⟨S8x4, .f32⟩
  | 12 => ⟨S1048576x4, .f32⟩
  | 13 => ⟨S1x4, .f32⟩
  | 14 => ⟨S1048576x4, .f32⟩
  | 15 => ⟨S1048576x4, .f32⟩
  | 16 => ⟨S1048576x4, .f32⟩
  | 17 => ⟨S1x4, .f32⟩
  | 18 => ⟨S1048576x4, .f32⟩
  | 19 => ⟨S1048576x4, .f32⟩
  | 20 => ⟨S1x4, .f32⟩
  | 21 => ⟨S1048576x4, .f32⟩
  | 22 => ⟨S1048576x4, .f32⟩
  | 23 => ⟨S_, .f32⟩
  | 24 => ⟨S_, .f32⟩
  | 25 => ⟨S_, .f32⟩
  | 26 => ⟨S4x4, .f32⟩
  | 27 => ⟨S4x4, .f32⟩
  | 28 => ⟨S_, .f32⟩
  | 29 => ⟨S4x4, .f32⟩
  | 30 => ⟨S4x4, .f32⟩
  | 31 => ⟨S_, .f32⟩
  | 32 => ⟨S_, .f32⟩
  | 33 => ⟨S_, .f32⟩
  | 34 => ⟨S4, .f32⟩
  | 35 => ⟨S4, .f32⟩
  | 36 => ⟨S_, .f32⟩
  | 37 => ⟨S4, .f32⟩
  | 38 => ⟨S4, .f32⟩
  | 39 => ⟨S4x4, .f32⟩
  | 40 => ⟨S1048576x4, .f32⟩
  | 41 => ⟨S1x4, .f32⟩
  | 42 => ⟨S1048576x4, .f32⟩
  | 43 => ⟨S1048576x4, .f32⟩
  | 44 => ⟨S1048576x4, .f32⟩
  | 45 => ⟨S1x4, .f32⟩
  | 46 => ⟨S1048576x4, .f32⟩
  | 47 => ⟨S1048576x4, .f32⟩
  | 48 => ⟨S1x4, .f32⟩
  | 49 => ⟨S1048576x4, .f32⟩
  | 50 => ⟨S1048576x4, .f32⟩
  | 51 => ⟨S4x1, .f32⟩
  | 52 => ⟨S1048576x1, .f32⟩
  | 53 => ⟨S1x1, .f32⟩
  | 54 => ⟨S1048576x1, .f32⟩
  | 55 => ⟨S1048576x1, .f32⟩
  | 56 => ⟨S1048576x1, .f32⟩
  | 57 => ⟨S1048576x1, .f32⟩
  | 58 => ⟨S_, .f32⟩
  | 59 => ⟨S1048576x1, .f32⟩
  | 60 => ⟨S1048576x1, .f32⟩
  | 61 => ⟨S_, .f32⟩
  | 62 => ⟨S1048576x1, .f32⟩
  | 63 => ⟨S1048576x1, .f32⟩
  | _ => ⟨S1048576x8, .f32⟩

abbrev hbmTy (i : Nat) : BufTy := match i / 128 with
  | 0 => hbmTy0_0 i
  | 1 => hbmTy0_1 i
  | _ => ⟨S1048576x8, .f32⟩

abbrev bufTy : (tb : Table) → Fin (tcTables nBuf tb) → BufTy
  | .hbm, ⟨i, _⟩ => hbmTy i
  | _, _ => ⟨S1048576x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_cst : Ref sig .tc := ⟨.hbm, 39, rfl⟩
abbrev main_cst_0 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v12 : Ref sig .tc := ⟨.hbm, 46, rfl⟩
abbrev main_cst_1 : Ref sig .tc := ⟨.hbm, 47, rfl⟩
abbrev main_cst_2 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_cst_3 : Ref sig .tc := ⟨.hbm, 67, rfl⟩
abbrev main_cst_4 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_v26 : Ref sig .tc := ⟨.hbm, 74, rfl⟩
abbrev main_cst_5 : Ref sig .tc := ⟨.hbm, 75, rfl⟩
abbrev main_cst_6 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_cst_7 : Ref sig .tc := ⟨.hbm, 95, rfl⟩
abbrev main_cst_8 : Ref sig .tc := ⟨.hbm, 96, rfl⟩
abbrev main_call4_v0 : Ref sig .tc := ⟨.hbm, 97, rfl⟩
abbrev main_call4_v1 : Ref sig .tc := ⟨.hbm, 98, rfl⟩
abbrev main_call4_v2 : Ref sig .tc := ⟨.hbm, 99, rfl⟩
abbrev main_call4_v3 : Ref sig .tc := ⟨.hbm, 100, rfl⟩
abbrev main_call4_v4 : Ref sig .tc := ⟨.hbm, 101, rfl⟩
abbrev main_v40 : Ref sig .tc := ⟨.hbm, 102, rfl⟩
abbrev main_cst_9 : Ref sig .tc := ⟨.hbm, 103, rfl⟩
abbrev main_cst_10 : Ref sig .tc := ⟨.hbm, 104, rfl⟩
abbrev main_call5_v0 : Ref sig .tc := ⟨.hbm, 105, rfl⟩
abbrev main_call5_v1 : Ref sig .tc := ⟨.hbm, 106, rfl⟩
abbrev main_call5_v2 : Ref sig .tc := ⟨.hbm, 107, rfl⟩
abbrev main_call5_v3 : Ref sig .tc := ⟨.hbm, 108, rfl⟩
abbrev main_call5_v4 : Ref sig .tc := ⟨.hbm, 109, rfl⟩
abbrev main_v41 : Ref sig .tc := ⟨.hbm, 110, rfl⟩
abbrev main_v42 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_cst_11 : Ref sig .tc := ⟨.hbm, 123, rfl⟩
abbrev main_cst_12 : Ref sig .tc := ⟨.hbm, 124, rfl⟩
abbrev main_call6_v0 : Ref sig .tc := ⟨.hbm, 125, rfl⟩
abbrev main_call6_v1 : Ref sig .tc := ⟨.hbm, 126, rfl⟩
abbrev main_call6_v2 : Ref sig .tc := ⟨.hbm, 127, rfl⟩
abbrev main_call6_v3 : Ref sig .tc := ⟨.hbm, 128, rfl⟩
abbrev main_call6_v4 : Ref sig .tc := ⟨.hbm, 129, rfl⟩
abbrev main_v54 : Ref sig .tc := ⟨.hbm, 130, rfl⟩
abbrev main_cst_13 : Ref sig .tc := ⟨.hbm, 131, rfl⟩
abbrev main_cst_14 : Ref sig .tc := ⟨.hbm, 132, rfl⟩
abbrev main_call7_v0 : Ref sig .tc := ⟨.hbm, 133, rfl⟩
abbrev main_call7_v1 : Ref sig .tc := ⟨.hbm, 134, rfl⟩
abbrev main_call7_v2 : Ref sig .tc := ⟨.hbm, 135, rfl⟩
abbrev main_call7_v3 : Ref sig .tc := ⟨.hbm, 136, rfl⟩
abbrev main_call7_v4 : Ref sig .tc := ⟨.hbm, 137, rfl⟩
abbrev main_v55 : Ref sig .tc := ⟨.hbm, 138, rfl⟩
abbrev main_v56 : Ref sig .tc := ⟨.hbm, 139, rfl⟩
abbrev main_v57 : Ref sig .tc := ⟨.hbm, 140, rfl⟩
abbrev main_v58 : Ref sig .tc := ⟨.hbm, 141, rfl⟩
abbrev main_v59 : Ref sig .tc := ⟨.hbm, 142, rfl⟩
abbrev main_v60 : Ref sig .tc := ⟨.hbm, 143, rfl⟩
abbrev main_v61 : Ref sig .tc := ⟨.hbm, 144, rfl⟩
abbrev main_v62 : Ref sig .tc := ⟨.hbm, 145, rfl⟩
abbrev main_v63 : Ref sig .tc := ⟨.hbm, 146, rfl⟩
abbrev main_v64 : Ref sig .tc := ⟨.hbm, 147, rfl⟩
abbrev main_v65 : Ref sig .tc := ⟨.hbm, 148, rfl⟩
abbrev main_v66 : Ref sig .tc := ⟨.hbm, 149, rfl⟩
abbrev main_v67 : Ref sig .tc := ⟨.hbm, 150, rfl⟩
abbrev main_cst_15 : Ref sig .tc := ⟨.hbm, 151, rfl⟩
abbrev main_cst_16 : Ref sig .tc := ⟨.hbm, 152, rfl⟩
abbrev main_call8_v0 : Ref sig .tc := ⟨.hbm, 153, rfl⟩
abbrev main_call8_v1 : Ref sig .tc := ⟨.hbm, 154, rfl⟩
abbrev main_call8_v2 : Ref sig .tc := ⟨.hbm, 155, rfl⟩
abbrev main_call8_v3 : Ref sig .tc := ⟨.hbm, 156, rfl⟩
abbrev main_call8_v4 : Ref sig .tc := ⟨.hbm, 157, rfl⟩
abbrev main_v68 : Ref sig .tc := ⟨.hbm, 158, rfl⟩
abbrev main_cst_17 : Ref sig .tc := ⟨.hbm, 159, rfl⟩
abbrev main_cst_18 : Ref sig .tc := ⟨.hbm, 160, rfl⟩
abbrev main_call9_v0 : Ref sig .tc := ⟨.hbm, 161, rfl⟩
abbrev main_call9_v1 : Ref sig .tc := ⟨.hbm, 162, rfl⟩
abbrev main_call9_v2 : Ref sig .tc := ⟨.hbm, 163, rfl⟩
abbrev main_call9_v3 : Ref sig .tc := ⟨.hbm, 164, rfl⟩
abbrev main_call9_v4 : Ref sig .tc := ⟨.hbm, 165, rfl⟩
abbrev main_v69 : Ref sig .tc := ⟨.hbm, 166, rfl⟩
abbrev main_v70 : Ref sig .tc := ⟨.hbm, 167, rfl⟩
abbrev main_v71 : Ref sig .tc := ⟨.hbm, 168, rfl⟩
abbrev main_v72 : Ref sig .tc := ⟨.hbm, 169, rfl⟩
abbrev main_v73 : Ref sig .tc := ⟨.hbm, 170, rfl⟩
abbrev main_v74 : Ref sig .tc := ⟨.hbm, 171, rfl⟩
abbrev main_v75 : Ref sig .tc := ⟨.hbm, 172, rfl⟩
abbrev main_v76 : Ref sig .tc := ⟨.hbm, 173, rfl⟩
abbrev main_v77 : Ref sig .tc := ⟨.hbm, 174, rfl⟩
abbrev main_v78 : Ref sig .tc := ⟨.hbm, 175, rfl⟩
abbrev main_v79 : Ref sig .tc := ⟨.hbm, 176, rfl⟩
abbrev main_v80 : Ref sig .tc := ⟨.hbm, 177, rfl⟩
abbrev main_v81 : Ref sig .tc := ⟨.hbm, 178, rfl⟩
abbrev main_v82 : Ref sig .tc := ⟨.hbm, 179, rfl⟩
abbrev main_v83 : Ref sig .tc := ⟨.hbm, 180, rfl⟩
abbrev main_v84 : Ref sig .tc := ⟨.hbm, 181, rfl⟩
abbrev main_v85 : Ref sig .tc := ⟨.hbm, 182, rfl⟩
abbrev main_v86 : Ref sig .tc := ⟨.hbm, 183, rfl⟩
abbrev main_v87 : Ref sig .tc := ⟨.hbm, 184, rfl⟩
abbrev main_v88 : Ref sig .tc := ⟨.hbm, 185, rfl⟩
abbrev main_cst_19 : Ref sig .tc := ⟨.hbm, 186, rfl⟩
abbrev main_v89 : Ref sig .tc := ⟨.hbm, 187, rfl⟩
abbrev main_v90 : Ref sig .tc := ⟨.hbm, 188, rfl⟩
abbrev main_cst_20 : Ref sig .tc := ⟨.hbm, 189, rfl⟩
abbrev main_v91 : Ref sig .tc := ⟨.hbm, 190, rfl⟩
abbrev main_v92 : Ref sig .tc := ⟨.hbm, 191, rfl⟩

abbrev nD : Nat := 1
abbrev τ : Topo := Topo.v7x

variable {F : FTy → Type} [FloatOps F]

class Facts₀ : Prop where
  transposes_S16x8_S8x16_1_0 : S16x8.Transposes [1, 0] S8x16
  bcast_S16_S1x16_1 : S16.BroadcastsInDim S1x16 (![1] : Fin 1 → Fin S1x16.rank)
  bcast_S1x16_S1048576x16_0_1 : S1x16.BroadcastsInDim S1048576x16 (![0, 1] : Fin 2 → Fin S1048576x16.rank)
  bcast_S_S16x16 : S_.BroadcastsInDim S16x16 (![] : Fin 0 → Fin S16x16.rank)
  bcast_S_S16 : S_.BroadcastsInDim S16 (![] : Fin 0 → Fin S16.rank)
  transposes_S16x16_S16x16_1_0 : S16x16.Transposes [1, 0] S16x16
  bcast_S_S12x16 : S_.BroadcastsInDim S12x16 (![] : Fin 0 → Fin S12x16.rank)
  bcast_S_S12 : S_.BroadcastsInDim S12 (![] : Fin 0 → Fin S12.rank)
  transposes_S12x16_S16x12_1_0 : S12x16.Transposes [1, 0] S16x12
  bcast_S12_S1x12_1 : S12.BroadcastsInDim S1x12 (![1] : Fin 1 → Fin S1x12.rank)
  bcast_S1x12_S1048576x12_0_1 : S1x12.BroadcastsInDim S1048576x12 (![0, 1] : Fin 2 → Fin S1048576x12.rank)
  bcast_S_S8x12 : S_.BroadcastsInDim S8x12 (![] : Fin 0 → Fin S8x12.rank)
  bcast_S_S8 : S_.BroadcastsInDim S8 (![] : Fin 0 → Fin S8.rank)
  transposes_S8x12_S12x8_1_0 : S8x12.Transposes [1, 0] S12x8
  bcast_S8_S1x8_1 : S8.BroadcastsInDim S1x8 (![1] : Fin 1 → Fin S1x8.rank)
  bcast_S1x8_S1048576x8_0_1 : S1x8.BroadcastsInDim S1048576x8 (![0, 1] : Fin 2 → Fin S1048576x8.rank)
  bcast_S_S4x8 : S_.BroadcastsInDim S4x8 (![] : Fin 0 → Fin S4x8.rank)
  bcast_S_S4 : S_.BroadcastsInDim S4 (![] : Fin 0 → Fin S4.rank)
  transposes_S4x8_S8x4_1_0 : S4x8.Transposes [1, 0] S8x4
  bcast_S4_S1x4_1 : S4.BroadcastsInDim S1x4 (![1] : Fin 1 → Fin S1x4.rank)
  bcast_S1x4_S1048576x4_0_1 : S1x4.BroadcastsInDim S1048576x4 (![0, 1] : Fin 2 → Fin S1048576x4.rank)
  bcast_S_S4x4 : S_.BroadcastsInDim S4x4 (![] : Fin 0 → Fin S4x4.rank)
  transposes_S4x4_S4x4_1_0 : S4x4.Transposes [1, 0] S4x4
  transposes_S1x4_S4x1_1_0 : S1x4.Transposes [1, 0] S4x1
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  bcast_S_S1048576x1 : S_.BroadcastsInDim S1048576x1 (![] : Fin 0 → Fin S1048576x1.rank)
  dot_S1048576x8_S8x16_S1048576x16_1_0_0_1_n_n_wf : DotDims.WF S1048576x8 S8x16 S1048576x16 [1] [0] [0] [1] [] []
  dot_S1048576x16_S16x16_S1048576x16_1_0_0_1_n_n_wf : DotDims.WF S1048576x16 S16x16 S1048576x16 [1] [0] [0] [1] [] []
  dot_S1048576x16_S16x12_S1048576x12_1_0_0_1_n_n_wf : DotDims.WF S1048576x16 S16x12 S1048576x12 [1] [0] [0] [1] [] []
  dot_S1048576x12_S12x8_S1048576x8_1_0_0_1_n_n_wf : DotDims.WF S1048576x12 S12x8 S1048576x8 [1] [0] [0] [1] [] []
  dot_S1048576x8_S8x4_S1048576x4_1_0_0_1_n_n_wf : DotDims.WF S1048576x8 S8x4 S1048576x4 [1] [0] [0] [1] [] []
  dot_S1048576x4_S4x4_S1048576x4_1_0_0_1_n_n_wf : DotDims.WF S1048576x4 S4x4 S1048576x4 [1] [0] [0] [1] [] []
  dot_S1048576x4_S4x1_S1048576x1_1_0_0_1_n_n_wf : DotDims.WF S1048576x4 S4x1 S1048576x1 [1] [0] [0] [1] [] []

variable [Facts₀]

def dot_S1048576x8_S8x16_S1048576x16_1_0_0_1_n_n : DotDims S1048576x8 S8x16 S1048576x16 where
  lhsContracting := [1]
  rhsContracting := [0]
  lhsNonContracting := [0]
  rhsNonContracting := [1]
  lhsBatch := []
  rhsBatch := []
  wf := dot_S1048576x8_S8x16_S1048576x16_1_0_0_1_n_n_wf
def dot_S1048576x16_S16x16_S1048576x16_1_0_0_1_n_n : DotDims S1048576x16 S16x16 S1048576x16 where
  lhsContracting := [1]
  rhsContracting := [0]
  lhsNonContracting := [0]
  rhsNonContracting := [1]
  lhsBatch := []
  rhsBatch := []
  wf := dot_S1048576x16_S16x16_S1048576x16_1_0_0_1_n_n_wf
def dot_S1048576x16_S16x12_S1048576x12_1_0_0_1_n_n : DotDims S1048576x16 S16x12 S1048576x12 where
  lhsContracting := [1]
  rhsContracting := [0]
  lhsNonContracting := [0]
  rhsNonContracting := [1]
  lhsBatch := []
  rhsBatch := []
  wf := dot_S1048576x16_S16x12_S1048576x12_1_0_0_1_n_n_wf
def dot_S1048576x12_S12x8_S1048576x8_1_0_0_1_n_n : DotDims S1048576x12 S12x8 S1048576x8 where
  lhsContracting := [1]
  rhsContracting := [0]
  lhsNonContracting := [0]
  rhsNonContracting := [1]
  lhsBatch := []
  rhsBatch := []
  wf := dot_S1048576x12_S12x8_S1048576x8_1_0_0_1_n_n_wf
def dot_S1048576x8_S8x4_S1048576x4_1_0_0_1_n_n : DotDims S1048576x8 S8x4 S1048576x4 where
  lhsContracting := [1]
  rhsContracting := [0]
  lhsNonContracting := [0]
  rhsNonContracting := [1]
  lhsBatch := []
  rhsBatch := []
  wf := dot_S1048576x8_S8x4_S1048576x4_1_0_0_1_n_n_wf
def dot_S1048576x4_S4x4_S1048576x4_1_0_0_1_n_n : DotDims S1048576x4 S4x4 S1048576x4 where
  lhsContracting := [1]
  rhsContracting := [0]
  lhsNonContracting := [0]
  rhsNonContracting := [1]
  lhsBatch := []
  rhsBatch := []
  wf := dot_S1048576x4_S4x4_S1048576x4_1_0_0_1_n_n_wf
def dot_S1048576x4_S4x1_S1048576x1_1_0_0_1_n_n : DotDims S1048576x4 S4x1 S1048576x1 where
  lhsContracting := [1]
  rhsContracting := [0]
  lhsNonContracting := [0]
  rhsNonContracting := [1]
  lhsBatch := []
  rhsBatch := []
  wf := dot_S1048576x4_S4x1_S1048576x1_1_0_0_1_n_n_wf

class Facts : Prop extends Facts₀ where

variable [Facts]
-- ==== Proof.KernelWindows.lean ====
/-
  The index maps of the pallas_call's 28 windows over its grid of 128 points.

  The input window and the output window move with the grid: both index maps send point `t` to block `(t, 0)`, so block
  `t` is rows `8192·t … 8192·t + 8191`. Every other window — the seven weight matrices and the nineteen one-row
  layouts of the biases, scales and shifts — has the constant index map `(0, 0)` and a block as large as its array: at
  every point its block is its whole array. Both facts are decided by evaluating the printed index maps.
-/
import proofs.«134463_j65481071410252_1_alg».proof.Proof.KernelIdealFrame
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.GenP

variable (m : (ℓ : Loc nD τ sig) → Buf (Elt Ideal) ℓ)

/-- The two moving windows' index maps, decided over the grid: both send point `t` to block `(t, 0)`. -/
theorem idx_moving : ∀ t : Fin cfg0.N, win0_0.index t (0 : Fin 2) = t.val ∧ win0_0.index t (1 : Fin 2) = 0
    ∧ win0_27.index t (0 : Fin 2) = t.val ∧ win0_27.index t (1 : Fin 2) = 0 :=
  (by decide +kernel : ∀ t : Fin grid0.N, _)

/-- Every window but the input's and the output's has the constant index map `(0, 0)`: decided over the 26 windows,
    the 128 points and the two axes. -/
theorem idx_resident : ∀ w : Fin 28, w ≠ 0 → w ≠ 27 → ∀ (t : Fin cfg0.N) (a : Fin (win0 w).shape.rank),
    (win0 w).index t a = 0 :=
  (by decide +kernel : ∀ w : Fin 28, w ≠ 0 → w ≠ 27 → ∀ (t : Fin grid0.N) (a : Fin (win0 w).shape.rank),
    (win0 w).index t a = 0)

/-- Row `p` of block `t` is a row of the array: `8192·t + p < 128·8192`. -/
theorem row_lt (t : Fin cfg0.N) (p : Fin 8192) : 8192 * t.val + p.val < 1048576 := by
  have hN : cfg0.N = 128 := N_0
  have ht := t.isLt
  have hp := p.isLt
  omega

set_option hygiene false in
/-- `whole_block w arr` closes `iblk m c w t = V m c arr` for a window `w` with the constant index map over the array
    `arr`: an element of the block sits, on each axis, at its own coordinate, the block's index there being zero. It
    reads `m`, `c` and `t` from the context. -/
macro "whole_block " w:num arr:ident : tactic => `(tactic| (
  funext y
  show V m c $arr (((cfg0.win $w).blk t).view.emb y) = V m c $arr y
  refine congrArg (V m c $arr) (funext fun a => Fin.ext ?_)
  exact Pipeline.Window.rect_emb_val_of_index_zero (win0 $w) t a (idx_resident $w (by decide) (by decide) t a) y))

end Cert.KernelIdeal.Hand

end
-- ==== Proof.KernelWeights.lean ====
/-
  Where the moving blocks and the weight matrices of a grid point sit in their arrays.

  At point `t` the input window shows rows `8192·t … 8192·t + 8191` of the input matrix (all eight columns), and the
  output window the same rows of the result's one column: on each axis an element of a block sits at the block's index
  times the block's extent plus its own coordinate, and both index maps send `t` to `(t, 0)`. The seven windows over the
  weight matrices show their whole arrays, and no host operation before the region writes a weight matrix, so each of
  those blocks is the matrix as launched.
-/
import proofs.«134463_j65481071410252_1_alg».proof.Proof.KernelWindows
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.GenP

variable (m : (ℓ : Loc nD τ sig) → Buf (Elt Ideal) ℓ)

/-- The input window's block at point `t`, at `(p, k)`, is the input matrix as launched at `(8192·t + p, k)`. -/
theorem xblk (c : Dev nD) (t : Fin cfg0.N) (p : Fin 8192) (k : Fin 8) :
    (iblk m c 0 t : Vec Ideal S8192x8 .f32) (ix2 p k)
      = (m ((c : Thread nD τ).loc main_arg0) : S1048576x8.Idx → EReal) (ix2 ⟨8192 * t.val + p.val, row_lt t p⟩ k) := by
  refine Eq.trans ?_ (congrFun (V_main_arg0 m c) _)
  show V m c main_arg0 (((cfg0.win 0).blk t).view.emb (ix2 p k)) = V m c main_arg0 (ix2 ⟨8192 * t.val + p.val, row_lt t p⟩ k)
  refine congrArg (V m c main_arg0) (funext fun a => Fin.ext ?_)
  obtain ⟨e0, e1, -, -⟩ := idx_moving t
  match a with
  | ⟨0, _⟩ => show win0_0.index t (0 : Fin 2) * 8192 + 1 * p.val = 8192 * t.val + p.val; rw [e0]; omega
  | ⟨1, _⟩ => show win0_0.index t (1 : Fin 2) * 8 + 1 * k.val = k.val; rw [e1]; omega

/-- An array read through the output window's block at point `t`, at `(p, u)`, is the array at `(8192·t + p, 0)`. -/
theorem read27 (t : Fin cfg0.N) (X : S1048576x1.Idx → EReal) (p : Fin 8192) (u : Fin 1) :
    (((cfg0.win 27).blk t).view.read (Elt Ideal) X : S8192x1.Idx → EReal) (ix2 p u)
      = X (ix2 ⟨8192 * t.val + p.val, row_lt t p⟩ (0 : Fin 1)) := by
  show X (((cfg0.win 27).blk t).view.emb (ix2 p u)) = X (ix2 ⟨8192 * t.val + p.val, row_lt t p⟩ (0 : Fin 1))
  refine congrArg X (funext fun a => Fin.ext ?_)
  obtain ⟨-, -, e2, e3⟩ := idx_moving t
  have hu := u.isLt
  match a with
  | ⟨0, _⟩ => show win0_27.index t (0 : Fin 2) * 8192 + 1 * p.val = 8192 * t.val + p.val; rw [e2]; omega
  | ⟨1, _⟩ => show win0_27.index t (1 : Fin 2) * 1 + 1 * u.val = 0; rw [e3]; omega

/-! ## The seven weight matrices: each window's block is the matrix as launched -/

theorem wblk1 (c : Dev nD) (t : Fin cfg0.N) : (iblk m c 1 t : Vec Ideal S16x8 .f32) = m ((c : Thread nD τ).loc main_arg1) :=
  Eq.trans (by whole_block 1 main_arg1) (V_main_arg1 m c)

theorem wblk5 (c : Dev nD) (t : Fin cfg0.N) : (iblk m c 5 t : Vec Ideal S16x16 .f32) = m ((c : Thread nD τ).loc main_arg5) :=
  Eq.trans (by whole_block 5 main_arg5) (V_main_arg5 m c)

theorem wblk9 (c : Dev nD) (t : Fin cfg0.N) : (iblk m c 9 t : Vec Ideal S12x16 .f32) = m ((c : Thread nD τ).loc main_arg9) :=
  Eq.trans (by whole_block 9 main_arg9) (V_main_arg9 m c)

theorem wblk13 (c : Dev nD) (t : Fin cfg0.N) : (iblk m c 13 t : Vec Ideal S8x12 .f32) = m ((c : Thread nD τ).loc main_arg13) :=
  Eq.trans (by whole_block 13 main_arg13) (V_main_arg13 m c)

theorem wblk17 (c : Dev nD) (t : Fin cfg0.N) : (iblk m c 17 t : Vec Ideal S4x8 .f32) = m ((c : Thread nD τ).loc main_arg17) :=
  Eq.trans (by whole_block 17 main_arg17) (V_main_arg17 m c)

theorem wblk21 (c : Dev nD) (t : Fin cfg0.N) : (iblk m c 21 t : Vec Ideal S4x4 .f32) = m ((c : Thread nD τ).loc main_arg21) :=
  Eq.trans (by whole_block 21 main_arg21) (V_main_arg21 m c)

theorem wblk25 (c : Dev nD) (t : Fin cfg0.N) : (iblk m c 25 t : Vec Ideal S1x4 .f32) = m ((c : Thread nD τ).loc main_arg25) :=
  Eq.trans (by whole_block 25 main_arg25) (V_main_arg25 m c)

end Cert.KernelIdeal.Hand

end
-- ==== Proof.KernelRows.lean ====
/-
  Where the biases, scales and shifts of a grid point sit in their arrays.

  Each bias, scale and shift is an argument vector `[n]` that the host lays out as one row `[1, n]` before the region (a
  reshape, which keeps the row-major order: entry `(0, j)` of the row is entry `j` of the vector). The window over that
  row shows the whole row at every point. Read at `(0, j)` its block is therefore the argument vector at `j`.
-/
import proofs.«134463_j65481071410252_1_alg».proof.Proof.KernelWindows
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.GenP

variable (m : (ℓ : Loc nD τ sig) → Buf (Elt Ideal) ℓ)

set_option hygiene false in
/-- `row_block w arr S1n Sn cast src` closes `iblk m c w t (0, j) = m src j` for the window `w` over the row `arr` that
    the host reshaped from the argument vector `src`: the block is the whole row (`whole_block`), the row is the cast
    of the vector (the host operations before the region, read back), and a cast `[n] → [1, n]` reads entry `j`. It reads
    `m`, `c`, `t` and `j` from the context. -/
local macro "row_block " w:num arr:ident S1n:ident Sn:ident cast:ident src:ident : tactic => `(tactic| (
  have hv : (V m c $arr : ($S1n).Idx → EReal)
      = shapeCast $S1n (m ((c : Thread nD τ).loc $src) : ($Sn).Idx → EReal) $cast := by
    dsimp only [V, hostOps0]
    after_results
    rfl
  have hw : (iblk m c $w t : Vec Ideal $S1n .f32) = V m c $arr := by whole_block $w $arr
  rw [hw, hv]
  exact shapeCast_a_1a_apply _ $cast (0 : Fin 1) j))

theorem vblk2 (c : Dev nD) (t : Fin cfg0.N) (j : Fin 16) :
    (iblk m c 2 t : Vec Ideal S1x16 .f32) (ix2 (0 : Fin 1) j) = (m ((c : Thread nD τ).loc main_arg2) : S16.Idx → EReal) (ix1 j) := by
  row_block 2 main_v0 S1x16 S16 shapeCasts_S16_S1x16 main_arg2

theorem vblk3 (c : Dev nD) (t : Fin cfg0.N) (j : Fin 16) :
    (iblk m c 3 t : Vec Ideal S1x16 .f32) (ix2 (0 : Fin 1) j) = (m ((c : Thread nD τ).loc main_arg3) : S16.Idx → EReal) (ix1 j) := by
  row_block 3 main_v1 S1x16 S16 shapeCasts_S16_S1x16 main_arg3

theorem vblk4 (c : Dev nD) (t : Fin cfg0.N) (j : Fin 16) :
    (iblk m c 4 t : Vec Ideal S1x16 .f32) (ix2 (0 : Fin 1) j) = (m ((c : Thread nD τ).loc main_arg4) : S16.Idx → EReal) (ix1 j) := by
  row_block 4 main_v2 S1x16 S16 shapeCasts_S16_S1x16 main_arg4

theorem vblk6 (c : Dev nD) (t : Fin cfg0.N) (j : Fin 16) :
    (iblk m c 6 t : Vec Ideal S1x16 .f32) (ix2 (0 : Fin 1) j) = (m ((c : Thread nD τ).loc main_arg6) : S16.Idx → EReal) (ix1 j) := by
  row_block 6 main_v3 S1x16 S16 shapeCasts_S16_S1x16 main_arg6

theorem vblk7 (c : Dev nD) (t : Fin cfg0.N) (j : Fin 16) :
    (iblk m c 7 t : Vec Ideal S1x16 .f32) (ix2 (0 : Fin 1) j) = (m ((c : Thread nD τ).loc main_arg7) : S16.Idx → EReal) (ix1 j) := by
  row_block 7 main_v4 S1x16 S16 shapeCasts_S16_S1x16 main_arg7

theorem vblk8 (c : Dev nD) (t : Fin cfg0.N) (j : Fin 16) :
    (iblk m c 8 t : Vec Ideal S1x16 .f32) (ix2 (0 : Fin 1) j) = (m ((c : Thread nD τ).loc main_arg8) : S16.Idx → EReal) (ix1 j) := by
  row_block 8 main_v5 S1x16 S16 shapeCasts_S16_S1x16 main_arg8

theorem vblk10 (c : Dev nD) (t : Fin cfg0.N) (j : Fin 12) :
    (iblk m c 10 t : Vec Ideal S1x12 .f32) (ix2 (0 : Fin 1) j) = (m ((c : Thread nD τ).loc main_arg10) : S12.Idx → EReal) (ix1 j) := by
  row_block 10 main_v6 S1x12 S12 shapeCasts_S12_S1x12 main_arg10

theorem vblk11 (c : Dev nD) (t : Fin cfg0.N) (j : Fin 12) :
    (iblk m c 11 t : Vec Ideal S1x12 .f32) (ix2 (0 : Fin 1) j) = (m ((c : Thread nD τ).loc main_arg11) : S12.Idx → EReal) (ix1 j) := by
  row_block 11 main_v7 S1x12 S12 shapeCasts_S12_S1x12 main_arg11

theorem vblk12 (c : Dev nD) (t : Fin cfg0.N) (j : Fin 12) :
    (iblk m c 12 t : Vec Ideal S1x12 .f32) (ix2 (0 : Fin 1) j) = (m ((c : Thread nD τ).loc main_arg12) : S12.Idx → EReal) (ix1 j) := by
  row_block 12 main_v8 S1x12 S12 shapeCasts_S12_S1x12 main_arg12

theorem vblk14 (c : Dev nD) (t : Fin cfg0.N) (j : Fin 8) :
    (iblk m c 14 t : Vec Ideal S1x8 .f32) (ix2 (0 : Fin 1) j) = (m ((c : Thread nD τ).loc main_arg14) : S8.Idx → EReal) (ix1 j) := by
  row_block 14 main_v9 S1x8 S8 shapeCasts_S8_S1x8 main_arg14

theorem vblk15 (c : Dev nD) (t : Fin cfg0.N) (j : Fin 8) :
    (iblk m c 15 t : Vec Ideal S1x8 .f32) (ix2 (0 : Fin 1) j) = (m ((c : Thread nD τ).loc main_arg15) : S8.Idx → EReal) (ix1 j) := by
  row_block 15 main_v10 S1x8 S8 shapeCasts_S8_S1x8 main_arg15

theorem vblk16 (c : Dev nD) (t : Fin cfg0.N) (j : Fin 8) :
    (iblk m c 16 t : Vec Ideal S1x8 .f32) (ix2 (0 : Fin 1) j) = (m ((c : Thread nD τ).loc main_arg16) : S8.Idx → EReal) (ix1 j) := by
  row_block 16 main_v11 S1x8 S8 shapeCasts_S8_S1x8 main_arg16

theorem vblk18 (c : Dev nD) (t : Fin cfg0.N) (j : Fin 4) :
    (iblk m c 18 t : Vec Ideal S1x4 .f32) (ix2 (0 : Fin 1) j) = (m ((c : Thread nD τ).loc main_arg18) : S4.Idx → EReal) (ix1 j) := by
  row_block 18 main_v12 S1x4 S4 shapeCasts_S4_S1x4 main_arg18

theorem vblk19 (c : Dev nD) (t : Fin cfg0.N) (j : Fin 4) :
    (iblk m c 19 t : Vec Ideal S1x4 .f32) (ix2 (0 : Fin 1) j) = (m ((c : Thread nD τ).loc main_arg19) : S4.Idx → EReal) (ix1 j) := by
  row_block 19 main_v13 S1x4 S4 shapeCasts_S4_S1x4 main_arg19

theorem vblk20 (c : Dev nD) (t : Fin cfg0.N) (j : Fin 4) :
    (iblk m c 20 t : Vec Ideal S1x4 .f32) (ix2 (0 : Fin 1) j) = (m ((c : Thread nD τ).loc main_arg20) : S4.Idx → EReal) (ix1 j) := by
  row_block 20 main_v14 S1x4 S4 shapeCasts_S4_S1x4 main_arg20

theorem vblk22 (c : Dev nD) (t : Fin cfg0.N) (j : Fin 4) :
    (iblk m c 22 t : Vec Ideal S1x4 .f32) (ix2 (0 : Fin 1) j) = (m ((c : Thread nD τ).loc main_arg22) : S4.Idx → EReal) (ix1 j) := by
  row_block 22 main_v15 S1x4 S4 shapeCasts_S4_S1x4 main_arg22

theorem vblk23 (c : Dev nD) (t : Fin cfg0.N) (j : Fin 4) :
    (iblk m c 23 t : Vec Ideal S1x4 .f32) (ix2 (0 : Fin 1) j) = (m ((c : Thread nD τ).loc main_arg23) : S4.Idx → EReal) (ix1 j) := by
  row_block 23 main_v16 S1x4 S4 shapeCasts_S4_S1x4 main_arg23

theorem vblk24 (c : Dev nD) (t : Fin cfg0.N) (j : Fin 4) :
    (iblk m c 24 t : Vec Ideal S1x4 .f32) (ix2 (0 : Fin 1) j) = (m ((c : Thread nD τ).loc main_arg24) : S4.Idx → EReal) (ix1 j) := by
  row_block 24 main_v17 S1x4 S4 shapeCasts_S4_S1x4 main_arg24

theorem vblk26 (c : Dev nD) (t : Fin cfg0.N) (j : Fin 1) :
    (iblk m c 26 t : Vec Ideal S1x1 .f32) (ix2 (0 : Fin 1) j) = (m ((c : Thread nD τ).loc main_arg26) : S1.Idx → EReal) (ix1 j) := by
  row_block 26 main_v18 S1x1 S1 shapeCasts_S1_S1x1 main_arg26

end Cert.KernelIdeal.Hand

end
-- ==== Proof.Mlp.lean ====
/-
  The function that both programs compute: a six-layer perceptron with a logistic head, applied to every row of the
  input matrix independently.

  One layer sends a row `h` of `K` activations to the `N` activations `tanh (Σ_k h_k · W_{j,k} + b_j) · s_j + t_j`:
  a dense map by the weight matrix `W` (one row of weights per output unit), a bias, the hyperbolic tangent, then an
  affine rescaling by `s` and `t`. In every layer but the first the weights and the bias are first held to the
  interval [-5, 5] entry by entry. The head sends the last row of four activations to the one number
  `logistic (Σ_k h_k · W_k + b)`, the logistic function being `1 / (1 + e^{-y})` on the extended reals.

  All sums here are finite sums of extended reals, which may be taken in any order and any grouping, and the operations
  are those of the ideal reading of a float program (PureOps/Ideal.lean). Nothing is assumed finite.
-/
import Idealize.ShloMosaic.PureOps.Ideal
import Idealize.ShloMosaic.Lib.ValueIdx

noncomputable section

open scoped BigOperators

namespace Cert.Mlp

open Idealize.ShloMosaic Idealize.ShloMosaic.ValueIdx

/-- An entry held to the interval [-5, 5]: raised to at least -5.0, then lowered to at most 5.0 (the two float words
    are exactly those numbers, but nothing below needs their values: both programs spell the same two words). -/
def clip (x : EReal) : EReal :=
  min (Ideal.ofBits .f32 0x40A00000#32) (max (Ideal.ofBits .f32 0xC0A00000#32) x)

/-- One layer on one row: output unit `j` is `tanh (Σ_k h_k · W_{j,k} + b_j) · s_j + t_j`. -/
def layer {K N : ℕ} (h : Fin K → EReal) (W : Fin N → Fin K → EReal) (b s t : Fin N → EReal) (j : Fin N) : EReal :=
  Ideal.tanh ((∑ k : Fin K, h k * W j k) + b j) * s j + t j

/-- The same layer with its weights and its bias held to [-5, 5] first. -/
def clipped {K N : ℕ} (h : Fin K → EReal) (W : Fin N → Fin K → EReal) (b s t : Fin N → EReal) : Fin N → EReal :=
  layer h (fun j k => clip (W j k)) (fun j => clip (b j)) s t

/-- The head on one row: `logistic (Σ_k h_k · W_k + b)`. -/
def head {K : ℕ} (h : Fin K → EReal) (W : Fin K → EReal) (b : EReal) : EReal :=
  Ideal.logistic ((∑ k : Fin K, h k * W k) + b)

/-- The whole network on one row `x` of eight features: widths 8 → 16 → 16 → 12 → 8 → 4 → 4 → 1. -/
def row (x : Fin 8 → EReal)
    (W0 : Fin 16 → Fin 8 → EReal) (b0 s0 t0 : Fin 16 → EReal)
    (W1 : Fin 16 → Fin 16 → EReal) (b1 s1 t1 : Fin 16 → EReal)
    (W2 : Fin 12 → Fin 16 → EReal) (b2 s2 t2 : Fin 12 → EReal)
    (W3 : Fin 8 → Fin 12 → EReal) (b3 s3 t3 : Fin 8 → EReal)
    (W4 : Fin 4 → Fin 8 → EReal) (b4 s4 t4 : Fin 4 → EReal)
    (W5 : Fin 4 → Fin 4 → EReal) (b5 s5 t5 : Fin 4 → EReal)
    (Wh : Fin 4 → EReal) (bh : EReal) : EReal :=
  head (clipped (clipped (clipped (clipped (clipped (layer x W0 b0 s0 t0) W1 b1 s1 t1) W2 b2 s2 t2) W3 b3 s3 t3)
    W4 b4 s4 t4) W5 b5 s5 t5) Wh bh

/-- A matrix and a vector of extended reals over literal extents. -/
abbrev Mat (a b : ℕ) : Type := FVec Ideal ⟨2, ![a, b]⟩ .f32
abbrev Vct (a : ℕ) : Type := FVec Ideal ⟨1, ![a]⟩ .f32

/-- The result array as one function of the argument arrays: entry `(r, 0)` is the network on row `r` of `x`. -/
def G (x : Mat 1048576 8)
    (W0 : Mat 16 8) (b0 s0 t0 : Vct 16) (W1 : Mat 16 16) (b1 s1 t1 : Vct 16)
    (W2 : Mat 12 16) (b2 s2 t2 : Vct 12) (W3 : Mat 8 12) (b3 s3 t3 : Vct 8)
    (W4 : Mat 4 8) (b4 s4 t4 : Vct 4) (W5 : Mat 4 4) (b5 s5 t5 : Vct 4)
    (Wh : Mat 1 4) (bh : Vct 1) : Mat 1048576 1 := fun i =>
  row (fun k => x (ix2 (i 0) k))
    (fun j k => W0 (ix2 j k)) (fun j => b0 (ix1 j)) (fun j => s0 (ix1 j)) (fun j => t0 (ix1 j))
    (fun j k => W1 (ix2 j k)) (fun j => b1 (ix1 j)) (fun j => s1 (ix1 j)) (fun j => t1 (ix1 j))
    (fun j k => W2 (ix2 j k)) (fun j => b2 (ix1 j)) (fun j => s2 (ix1 j)) (fun j => t2 (ix1 j))
    (fun j k => W3 (ix2 j k)) (fun j => b3 (ix1 j)) (fun j => s3 (ix1 j)) (fun j => t3 (ix1 j))
    (fun j k => W4 (ix2 j k)) (fun j => b4 (ix1 j)) (fun j => s4 (ix1 j)) (fun j => t4 (ix1 j))
    (fun j k => W5 (ix2 j k)) (fun j => b5 (ix1 j)) (fun j => s5 (ix1 j)) (fun j => t5 (ix1 j))
    (fun k => Wh (ix2 (0 : Fin 1) k)) (bh (ix1 (0 : Fin 1)))

/-- The float word of 1.0 is the extended real one. -/
theorem ofBits_one : Ideal.ofBits .f32 0x3F800000#32 = 1 := by
  simp [Ideal.ofBits, Ideal.ieee, -EReal.coe_mul]; norm_num

/-- The logistic function spelt out with that word for its two ones, as a host program spells it. -/
theorem logistic_spelt (y : EReal) :
    Ideal.div (Ideal.ofBits .f32 0x3F800000#32) (Ideal.ofBits .f32 0x3F800000#32 + Ideal.exp (-y)) = Ideal.logistic y := by
  rw [ofBits_one]; rfl

end Cert.Mlp

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.KernelLayer.lean ====
/-
  One layer of the network as a kernel computes it on a block of `M` rows, read at a row and a column.

  The kernel holds the weight matrix `W` as `[N, K]` (one row of weights per output unit), transposes it to `[K, N]`,
  multiplies the block `H` of activations `[M, K]` by it into a zero accumulator, adds the bias — a `[1, N]` row spread
  over the `M` rows —, applies the hyperbolic tangent, and rescales by two more `[1, N]` rows spread the same way. At row
  `p` and column `j` that is the layer of Mlp.lean on row `p` of `H`: the matrix product there is the sum over `k` of
  `H(p, k) · W(j, k)`, and a spread row reads its entry `j` whatever the row `p`. Nothing here depends on the extents.
-/
import proofs.«134463_j65481071410252_1_alg».proof.Proof.Mlp
import proofs.«134463_j65481071410252_1_alg».proof.Proof.LibMatmulNN
import Idealize.ShloMosaic.Lib.ValueLayout
import Idealize.ShloMosaic.PureOps.Ideal.Laws

noncomputable section

open scoped BigOperators

namespace Cert.KernelLayer

open Idealize.ShloMosaic Idealize.ShloMosaic.ValueIdx Cert.Mlp

variable {M K N : ℕ}

/-- A vector held to [-5, 5] entry by entry, as a kernel spells it: the maximum with the splat of -5.0, then the
    minimum with the splat of 5.0. -/
def vclip {s : Shape} (v : FVec Ideal s .f32) : FVec Ideal s .f32 :=
  minimumf (broadcast s (Scalar.ofBits .f32 0x40A00000#32)) (maximumf (broadcast s (Scalar.ofBits .f32 0xC0A00000#32)) v)

/-- Entry by entry that is the clip of Mlp.lean. -/
theorem vclip_apply {s : Shape} (v : FVec Ideal s .f32) (i : s.Idx) : vclip v i = clip (v i) := rfl

/-- One layer on a block: `tanh (H · Wᵀ + b) · s + t`, the three rows `b`, `s`, `t` spread over the block's rows. -/
def klayer (d : DotDims ⟨2, ![M, K]⟩ ⟨2, ![K, N]⟩ ⟨2, ![M, N]⟩)
    (ht : (⟨2, ![N, K]⟩ : Shape).Transposes [1, 0] ⟨2, ![K, N]⟩)
    (hb : (⟨2, ![1, N]⟩ : Shape).Broadcasts ⟨2, ![M, N]⟩)
    (H : FVec Ideal ⟨2, ![M, K]⟩ .f32) (W : FVec Ideal ⟨2, ![N, K]⟩ .f32) (b s t : FVec Ideal ⟨2, ![1, N]⟩ .f32) :
    FVec Ideal ⟨2, ![M, N]⟩ .f32 :=
  addf (mulf (tanh (addf (matmul d (some .fp32) H (transpose ⟨2, ![K, N]⟩ [1, 0] W ht) (constant ⟨2, ![M, N]⟩ .f32 0x00000000#32))
    (broadcastTo ⟨2, ![M, N]⟩ b hb))) (broadcastTo ⟨2, ![M, N]⟩ s hb)) (broadcastTo ⟨2, ![M, N]⟩ t hb)

/-- At row `p` and column `j` the block layer is the layer of Mlp.lean on row `p` of the block. -/
theorem klayer_apply (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (ht : (⟨2, ![N, K]⟩ : Shape).Transposes [1, 0] ⟨2, ![K, N]⟩)
    (hb : (⟨2, ![1, N]⟩ : Shape).Broadcasts ⟨2, ![M, N]⟩)
    (H : FVec Ideal ⟨2, ![M, K]⟩ .f32) (W : FVec Ideal ⟨2, ![N, K]⟩ .f32) (b s t : FVec Ideal ⟨2, ![1, N]⟩ .f32)
    (p : Fin M) (j : Fin N) :
    klayer d ht hb H W b s t (ix2 p j)
      = layer (fun k => H (ix2 p k)) (fun j k => W (ix2 j k)) (fun j => b (ix2 (0 : Fin 1) j))
          (fun j => s (ix2 (0 : Fin 1) j)) (fun j => t (ix2 (0 : Fin 1) j)) j := by
  have hm := Cert.LibMatmulNN.matmul_nn_apply d hlc hrc hln hrn hlb hrb (some .fp32) H
    (transpose ⟨2, ![K, N]⟩ [1, 0] W ht) p j
  have e : ∀ k : Fin K, transpose ⟨2, ![K, N]⟩ [1, 0] W ht (ix2 k j) = W (ix2 j k) := fun k =>
    transpose_ix2_apply W ht k j
  show Ideal.tanh (matmul d (some .fp32) H (transpose ⟨2, ![K, N]⟩ [1, 0] W ht)
      (constant ⟨2, ![M, N]⟩ .f32 0x00000000#32) (ix2 p j) + broadcastTo ⟨2, ![M, N]⟩ b hb (ix2 p j))
      * broadcastTo ⟨2, ![M, N]⟩ s hb (ix2 p j) + broadcastTo ⟨2, ![M, N]⟩ t hb (ix2 p j) = _
  rw [hm, broadcastTo_1b_ab_apply b hb p j, broadcastTo_1b_ab_apply s hb p j, broadcastTo_1b_ab_apply t hb p j]
  unfold layer
  simp only [e]

/-- The head on a block: `logistic (H · Wᵀ + b)`, `W` the one row `[1, K]` of weights and `b` the one bias. -/
def khead (d : DotDims ⟨2, ![M, K]⟩ ⟨2, ![K, 1]⟩ ⟨2, ![M, 1]⟩)
    (ht : (⟨2, ![1, K]⟩ : Shape).Transposes [1, 0] ⟨2, ![K, 1]⟩)
    (hb : (⟨2, ![1, 1]⟩ : Shape).Broadcasts ⟨2, ![M, 1]⟩)
    (H : FVec Ideal ⟨2, ![M, K]⟩ .f32) (W : FVec Ideal ⟨2, ![1, K]⟩ .f32) (b : FVec Ideal ⟨2, ![1, 1]⟩ .f32) :
    FVec Ideal ⟨2, ![M, 1]⟩ .f32 :=
  logistic (addf (matmul d (some .fp32) H (transpose ⟨2, ![K, 1]⟩ [1, 0] W ht) (constant ⟨2, ![M, 1]⟩ .f32 0x00000000#32))
    (broadcastTo ⟨2, ![M, 1]⟩ b hb))

/-- At row `p` (and the one column) the block head is the head of Mlp.lean on row `p` of the block. -/
theorem khead_apply (d : DotDims ⟨2, ![M, K]⟩ ⟨2, ![K, 1]⟩ ⟨2, ![M, 1]⟩)
    (hlc : d.lhsContracting = [1]) (hrc : d.rhsContracting = [0])
    (hln : d.lhsNonContracting = [0]) (hrn : d.rhsNonContracting = [1])
    (hlb : d.lhsBatch = []) (hrb : d.rhsBatch = [])
    (ht : (⟨2, ![1, K]⟩ : Shape).Transposes [1, 0] ⟨2, ![K, 1]⟩)
    (hb : (⟨2, ![1, 1]⟩ : Shape).Broadcasts ⟨2, ![M, 1]⟩)
    (H : FVec Ideal ⟨2, ![M, K]⟩ .f32) (W : FVec Ideal ⟨2, ![1, K]⟩ .f32) (b : FVec Ideal ⟨2, ![1, 1]⟩ .f32)
    (p : Fin M) (u : Fin 1) :
    khead d ht hb H W b (ix2 p u)
      = head (fun k => H (ix2 p k)) (fun k => W (ix2 (0 : Fin 1) k)) (b (ix2 (0 : Fin 1) (0 : Fin 1))) := by
  obtain rfl : u = 0 := Subsingleton.elim _ _
  have hm := Cert.LibMatmulNN.matmul_nn_apply d hlc hrc hln hrn hlb hrb (some .fp32) H
    (transpose ⟨2, ![K, 1]⟩ [1, 0] W ht) p (0 : Fin 1)
  have e : ∀ k : Fin K, transpose ⟨2, ![K, 1]⟩ [1, 0] W ht (ix2 k (0 : Fin 1)) = W (ix2 (0 : Fin 1) k) := fun k =>
    transpose_ix2_apply W ht k (0 : Fin 1)
  show Ideal.logistic (matmul d (some .fp32) H (transpose ⟨2, ![K, 1]⟩ [1, 0] W ht)
      (constant ⟨2, ![M, 1]⟩ .f32 0x00000000#32) (ix2 p (0 : Fin 1)) + broadcastTo ⟨2, ![M, 1]⟩ b hb (ix2 p (0 : Fin 1))) = _
  rw [hm, broadcastTo_1b_ab_apply b hb p (0 : Fin 1)]
  unfold head
  simp only [e]

end Cert.KernelLayer

end
-- ==== Proof.KernelPayload.lean ====
/-
  What one grid point stores, as a function of the blocks it loads: the network of Mlp.lean on each row of the
  point's block of inputs.

  The body's arithmetic is one pure term of its loads (the generated payloads): six layers and the head, each layer in
  the form of KernelLayer.lean — the weight matrix transposed, the matrix product into a zero accumulator, the bias, the
  scale and the shift as `[1, N]` rows spread over the block's 8192 rows —, with the weights and the bias of every layer
  but the first held to [-5, 5]. The loaded rows pass through shape casts `[1, N] → [1, N]`, which are the identity.
  Read at row `p` of the block (and the one column), the stored value is therefore the network applied to row `p` of
  the input block, with each loaded matrix read by coordinates and each loaded `[1, N]` row read along its one row.
-/
import proofs.«134463_j65481071410252_1_alg».proof.Proof.Gen.KernelIdeal.Skeleton
import proofs.«134463_j65481071410252_1_alg».proof.Proof.KernelLayer
import Idealize.ShloMosaic.Lib.Pipeline.Value

noncomputable section

namespace Cert.KernelIdeal.Hand

open Cert.KernelIdeal Cert.KernelIdeal.Gen Cert.KernelLayer Cert.Mlp
open Idealize.ShloMosaic Idealize.ShloMosaic.ValueIdx

/-- The six hidden layers on a block, from the loaded blocks: the nested payloads up to the head's input. -/
def hidden (v0 : Vec Ideal S8192x8 .f32) (v1 : Vec Ideal S16x8 .f32) (v2 v4 v6 : Vec Ideal S1x16 .f32)
    (v17 : Vec Ideal S16x16 .f32) (v18 v20 v22 : Vec Ideal S1x16 .f32)
    (v41 : Vec Ideal S12x16 .f32) (v42 v44 v46 : Vec Ideal S1x12 .f32)
    (v65 : Vec Ideal S8x12 .f32) (v66 v68 v70 : Vec Ideal S1x8 .f32)
    (v89 : Vec Ideal S4x8 .f32) (v90 v92 v94 : Vec Ideal S1x4 .f32)
    (v113 : Vec Ideal S4x4 .f32) (v114 v116 v118 : Vec Ideal S1x4 .f32) : FVec Ideal S8192x4 .f32 :=
  klayer dot_S8192x4_S4x4_S8192x4_1_0_0_1_n_n transposes_S4x4_p1_0_S4x4 broadcasts_S1x4_S8192x4
    (klayer dot_S8192x8_S8x4_S8192x4_1_0_0_1_n_n transposes_S4x8_p1_0_S8x4 broadcasts_S1x4_S8192x4
      (klayer dot_S8192x12_S12x8_S8192x8_1_0_0_1_n_n transposes_S8x12_p1_0_S12x8 broadcasts_S1x8_S8192x8
        (klayer dot_S8192x16_S16x12_S8192x12_1_0_0_1_n_n transposes_S12x16_p1_0_S16x12 broadcasts_S1x12_S8192x12
          (klayer dot_S8192x16_S16x16_S8192x16_1_0_0_1_n_n transposes_S16x16_p1_0_S16x16 broadcasts_S1x16_S8192x16
            (klayer dot_S8192x8_S8x16_S8192x16_1_0_0_1_n_n transposes_S16x8_p1_0_S8x16 broadcasts_S1x16_S8192x16
              v0 v1 v2 v4 v6)
            (vclip v17) (vclip v18) v20 v22)
          (vclip v41) (vclip v42) v44 v46)
        (vclip v65) (vclip v66) v68 v70)
      (vclip v89) (vclip v90) v92 v94)
    (vclip v113) (vclip v114) v116 v118

/-- The stored value is the head on those six layers: the payloads unfold to it, the shape casts of the loaded rows
    being the identity. -/
theorem stored_eq (v0 : Vec Ideal S8192x8 .f32) (v1 : Vec Ideal S16x8 .f32) (v2 v4 v6 : Vec Ideal S1x16 .f32)
    (v17 : Vec Ideal S16x16 .f32) (v18 v20 v22 : Vec Ideal S1x16 .f32)
    (v41 : Vec Ideal S12x16 .f32) (v42 v44 v46 : Vec Ideal S1x12 .f32)
    (v65 : Vec Ideal S8x12 .f32) (v66 v68 v70 : Vec Ideal S1x8 .f32)
    (v89 : Vec Ideal S4x8 .f32) (v90 v92 v94 : Vec Ideal S1x4 .f32)
    (v113 : Vec Ideal S4x4 .f32) (v114 v116 v118 : Vec Ideal S1x4 .f32)
    (v137 : Vec Ideal S1x4 .f32) (v138 : Vec Ideal S1x1 .f32) :
    k0_pay1 (F := Ideal) (k0_pay10 (k0_pay6 (k0_pay2 v20) (k0_pay3 v22) (k0_pay4 v0 v1 v2 v4 v6 v17) (k0_pay5 v18) v41 v42 v44 v46)
        v65 (k0_pay7 v66) (k0_pay8 v68) (k0_pay9 v70) (Scalar.ofBits .f32 0xC0A00000#32) (Scalar.ofBits .f32 0x40A00000#32)
        v89 v90 v92 v94) v113 v114 v116 v118 v137 v138
      = khead dot_S8192x4_S4x1_S8192x1_1_0_0_1_n_n transposes_S1x4_p1_0_S4x1 broadcasts_S1x1_S8192x1
          (hidden v0 v1 v2 v4 v6 v17 v18 v20 v22 v41 v42 v44 v46 v65 v66 v68 v70 v89 v90 v92 v94 v113 v114 v116 v118)
          v137 v138 := by
  unfold k0_pay1 k0_pay10 k0_pay6 k0_pay4 k0_pay5 k0_pay2 k0_pay3 k0_pay7 k0_pay8 k0_pay9
  simp only [shapeCast_self]
  rfl

/-- At row `p` of the block the stored value is the network on row `p` of the input block. -/
theorem stored_apply (v0 : Vec Ideal S8192x8 .f32) (v1 : Vec Ideal S16x8 .f32) (v2 v4 v6 : Vec Ideal S1x16 .f32)
    (v17 : Vec Ideal S16x16 .f32) (v18 v20 v22 : Vec Ideal S1x16 .f32)
    (v41 : Vec Ideal S12x16 .f32) (v42 v44 v46 : Vec Ideal S1x12 .f32)
    (v65 : Vec Ideal S8x12 .f32) (v66 v68 v70 : Vec Ideal S1x8 .f32)
    (v89 : Vec Ideal S4x8 .f32) (v90 v92 v94 : Vec Ideal S1x4 .f32)
    (v113 : Vec Ideal S4x4 .f32) (v114 v116 v118 : Vec Ideal S1x4 .f32)
    (v137 : Vec Ideal S1x4 .f32) (v138 : Vec Ideal S1x1 .f32) (p : Fin 8192) (u : Fin 1) :
    k0_pay1 (F := Ideal) (k0_pay10 (k0_pay6 (k0_pay2 v20) (k0_pay3 v22) (k0_pay4 v0 v1 v2 v4 v6 v17) (k0_pay5 v18) v41 v42 v44 v46)
        v65 (k0_pay7 v66) (k0_pay8 v68) (k0_pay9 v70) (Scalar.ofBits .f32 0xC0A00000#32) (Scalar.ofBits .f32 0x40A00000#32)
        v89 v90 v92 v94) v113 v114 v116 v118 v137 v138 (ix2 p u)
      = row (fun k => v0 (ix2 p k))
          (fun j k => v1 (ix2 j k)) (fun j => v2 (ix2 (0 : Fin 1) j)) (fun j => v4 (ix2 (0 : Fin 1) j)) (fun j => v6 (ix2 (0 : Fin 1) j))
          (fun j k => v17 (ix2 j k)) (fun j => v18 (ix2 (0 : Fin 1) j)) (fun j => v20 (ix2 (0 : Fin 1) j)) (fun j => v22 (ix2 (0 : Fin 1) j))
          (fun j k => v41 (ix2 j k)) (fun j => v42 (ix2 (0 : Fin 1) j)) (fun j => v44 (ix2 (0 : Fin 1) j)) (fun j => v46 (ix2 (0 : Fin 1) j))
          (fun j k => v65 (ix2 j k)) (fun j => v66 (ix2 (0 : Fin 1) j)) (fun j => v68 (ix2 (0 : Fin 1) j)) (fun j => v70 (ix2 (0 : Fin 1) j))
          (fun j k => v89 (ix2 j k)) (fun j => v90 (ix2 (0 : Fin 1) j)) (fun j => v92 (ix2 (0 : Fin 1) j)) (fun j => v94 (ix2 (0 : Fin 1) j))
          (fun j k => v113 (ix2 j k)) (fun j => v114 (ix2 (0 : Fin 1) j)) (fun j => v116 (ix2 (0 : Fin 1) j)) (fun j => v118 (ix2 (0 : Fin 1) j))
          (fun k => v137 (ix2 (0 : Fin 1) k)) (v138 (ix2 (0 : Fin 1) (0 : Fin 1))) := by
  rw [stored_eq, khead_apply _ rfl rfl rfl rfl rfl rfl]
  unfold hidden row clipped
  simp only [klayer_apply dot_S8192x4_S4x4_S8192x4_1_0_0_1_n_n rfl rfl rfl rfl rfl rfl,
    klayer_apply dot_S8192x8_S8x4_S8192x4_1_0_0_1_n_n rfl rfl rfl rfl rfl rfl,
    klayer_apply dot_S8192x12_S12x8_S8192x8_1_0_0_1_n_n rfl rfl rfl rfl rfl rfl,
    klayer_apply dot_S8192x16_S16x12_S8192x12_1_0_0_1_n_n rfl rfl rfl rfl rfl rfl,
    klayer_apply dot_S8192x16_S16x16_S8192x16_1_0_0_1_n_n rfl rfl rfl rfl rfl rfl,
    klayer_apply dot_S8192x8_S8x16_S8192x16_1_0_0_1_n_n rfl rfl rfl rfl rfl rfl, vclip_apply]

end Cert.KernelIdeal.Hand

end
-- ==== Proof.KernelValue.lean ====
/-
  The kernel's result array is `G` of Mlp.lean: the network applied to every row of the input.

  At grid point `t` the body stores, at row `p` of the output block, the network on row `p` of the input block
  (KernelPayload.lean) with the weight matrices and the one-row layouts read from their windows' blocks. The input
  block's row `p` is row `8192·t + p` of the input matrix, every other block is its whole array, and a one-row layout
  read at `(0, j)` is its argument vector at `j` (KernelWeights.lean, KernelRows.lean). So what point `t` writes back
  is block `t` of `G` of the arguments. Row `r` of the result lies in the block of point `r / 8192`, so the 128
  blocks cover the array, and the array ends holding `G`. The run's post names that array and leaves every argument as
  launched.
-/
import proofs.«134463_j65481071410252_1_alg».proof.Proof.KernelWeights
import proofs.«134463_j65481071410252_1_alg».proof.Proof.KernelRows
import proofs.«134463_j65481071410252_1_alg».proof.Proof.KernelPayload
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.GenP

variable (m : (ℓ : Loc nD τ sig) → Buf (Elt Ideal) ℓ)

open Cert.Mlp

variable (ρ : Dev nD → PrngReg)

theorem hz : (![0, 0] : Fin 2 → Nat) = fun _ => 0 := funext fun a => by fin_cases a <;> rfl

/-- The result array: `G` of the argument arrays as launched. -/
abbrev result (c : Dev nD) : Buf (Elt Ideal) ((c : Thread nD τ).loc main_v19) :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))

/-- What point `t` writes back is block `t` of the result. -/
theorem flushed_eq (c : Dev nD) (t : Fin cfg0.N) :
    (dats m 0 c).flushed 27 t = ((cfg0.win 27).blk t).view.read (Elt Ideal) (result m c) := by
  show (cfg0.win 27).cut (grid0.coords t) ((dats m 0 c).after 27 t) = _
  rw [after0_27]
  unfold out0_27
  rw [View.canon_unit_zero hz]
  simp only [View.ld_unit_zero (S := S8192x8) hz, View.ld_unit_zero (S := S16x8) hz, View.ld_unit_zero (S := S1x16) hz, View.ld_unit_zero (S := S16x16) hz, View.ld_unit_zero (S := S12x16) hz, View.ld_unit_zero (S := S1x12) hz, View.ld_unit_zero (S := S8x12) hz, View.ld_unit_zero (S := S1x8) hz, View.ld_unit_zero (S := S4x8) hz, View.ld_unit_zero (S := S1x4) hz, View.ld_unit_zero (S := S4x4) hz, View.ld_unit_zero (S := S1x1) hz]
  show (_ : S8192x1.Idx → EReal) = _
  funext y
  obtain ⟨p, u, rfl⟩ : ∃ (p : Fin 8192) (u : Fin 1), y = ix2 p u := ⟨y 0, y 1, eq_ix2 y⟩
  refine (stored_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) p u).trans ?_
  rw [read27 t (result m c) p u]
  simp only [xblk m c t p, wblk1 m c t, wblk5 m c t, wblk9 m c t, wblk13 m c t, wblk17 m c t, wblk21 m c t, wblk25 m c t, vblk2 m c t, vblk3 m c t, vblk4 m c t, vblk6 m c t, vblk7 m c t, vblk8 m c t, vblk10 m c t, vblk11 m c t, vblk12 m c t, vblk14 m c t, vblk15 m c t, vblk16 m c t, vblk18 m c t, vblk19 m c t, vblk20 m c t, vblk22 m c t, vblk23 m c t, vblk24 m c t, vblk26 m c t]
  rfl

/-- An index of the result array is in point `t`'s block iff each coordinate is in the block's range on its axis. -/
theorem mem_blk27 (t : Fin cfg0.N) (i : S1048576x1.Idx) :
    i ∈ ((cfg0.win 27).blk t).view.set ↔ ∀ a : Fin 2, win0_27.index t a * S8192x1.size a ≤ (i a).val
      ∧ (i a).val < win0_27.index t a * S8192x1.size a + S8192x1.size a := by
  show i ∈ ((View.whole main_v19).slice (win0_27.rect t)).set ↔ _
  rw [View.set_slice_whole, Rect.mem_set_unit]
  exact Iff.rfl

/-- Every index of the result array is in some point's block: row `r` in the block of point `r / 8192`. -/
theorem cover (i : S1048576x1.Idx) :
    ∃ t : Fin cfg0.N, (cfg0.win 27).flush t = true ∧ i ∈ ((cfg0.win 27).blk t).view.set := by
  have hN : cfg0.N = 128 := N_0
  have h0 : (i 0).val < 1048576 := (i 0).isLt
  have h1 : (i 1).val < 1 := (i 1).isLt
  refine ⟨⟨(i 0).val / 8192, by omega⟩, flush0_27 _, ?_⟩
  rw [mem_blk27]
  obtain ⟨-, -, e2, e3⟩ := idx_moving ⟨(i 0).val / 8192, by omega⟩
  intro a
  match a with
  | ⟨0, _⟩ =>
    show win0_27.index ⟨(i 0).val / 8192, _⟩ (0 : Fin 2) * 8192 ≤ (i 0).val
      ∧ (i 0).val < win0_27.index ⟨(i 0).val / 8192, _⟩ (0 : Fin 2) * 8192 + 8192
    rw [e2]
    show (i 0).val / 8192 * 8192 ≤ (i 0).val ∧ (i 0).val < (i 0).val / 8192 * 8192 + 8192
    omega
  | ⟨1, _⟩ =>
    show win0_27.index ⟨(i 0).val / 8192, _⟩ (1 : Fin 2) * 1 ≤ (i 1).val
      ∧ (i 1).val < win0_27.index ⟨(i 0).val / 8192, _⟩ (1 : Fin 2) * 1 + 1
    rw [e3]
    omega

/-- The result array after the run is `G` of the arguments. -/
theorem final (c : Dev nD) : (dats m 0 c).arrAt 27 cfg0.N = result m c :=
  (dats m 0 c).arrAt_eq_of_cover 27 (result m c) (fun t _ => flushed_eq m c t) cover

/-- The run, read: the result array at `G` of the arguments, every argument as launched. -/
theorem run : θ_run defs (onTc (τ := τ) (main (F := Ideal))) ⟨m, fun _ => 0, ρ⟩ fun r => ∀ c : Dev nD,
      r.2.mem ((c : Thread nD τ).loc main_v19) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26) :=
  (θ_run defs _ _).mono (fun r h c => ⟨((h c).1 27).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).1 9).trans (((dats m 0 c).arrAt_in 9 rfl _).trans ((A_eq m c 9).trans (V_main_arg9 m c))),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).1 13).trans (((dats m 0 c).arrAt_in 13 rfl _).trans ((A_eq m c 13).trans (V_main_arg13 m c))),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).1 17).trans (((dats m 0 c).arrAt_in 17 rfl _).trans ((A_eq m c 17).trans (V_main_arg17 m c))),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).1 21).trans (((dats m 0 c).arrAt_in 21 rfl _).trans ((A_eq m c 21).trans (V_main_arg21 m c))),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).1 25).trans (((dats m 0 c).arrAt_in 25 rfl _).trans ((A_eq m c 25).trans (V_main_arg25 m c))),
      ((h c).2 main_arg26 (Pipeline.mem_restRefs_of main_arg26 (by decide) (by decide))).trans (V_main_arg26 m c)⟩)
    (run_main m ρ)

end Cert.KernelIdeal.Hand

end
-- ==== Proof.LibHostMatmulNN.lean ====
/-
  A host program's matrix product `A · B` and a vector broadcast along the rows of a matrix, read at an index on the
  extended reals.

  `stablehlo.dot_general` of an `[M, K]` by a `[K, N]` operand — the left operand's last axis contracted with the right
  operand's first, no batch axes (jnp `x @ W`; dimension numbers `[1] x [0]`, free axes `[0]` and `[1]`) — is, at
  `(i, j)`, the sum over `k : Fin K` of `A(i, k) · B(k, j)`: the host's schedule of the additions does not matter on
  the extended reals. Stated for ANY record of dimension numbers with those six lists (each hypothesis closed by `rfl`
  at a printed record); imports only the Idealize library. `stablehlo.broadcast_in_dim` of a vector `[b]` to `[a, b]` along axis 1 (jnp `broadcast_to` of a
  bias or of one row of features to every row) reads, at `(p, c)`, the vector at `c`.
-/
import Idealize.ShloMosaic.Lib.ValueIdx
import Idealize.ShloMosaic.Lib.Pipeline.Value
import Idealize.ShloMosaic.PureOps.Ideal.Laws

noncomputable section

open scoped BigOperators

namespace Cert.LibHostMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- The host's `A · B`, at `(i, j)`, is `Σ_k A[i, k] · B[k, j]`. -/
theorem hostDot_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    Host.dotGeneral d prec A B (ix2 i j) = ∑ k : Fin K, A (ix2 i k) * B (ix2 k j) := by
  have hr := contr_rank d hlc
  have hs := contr_size d hlc
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

/-- A vector `[b]` broadcast to `[a, b]` along the rows reads, at `(p, c)`, the vector at `c`. -/
theorem broadcastInDim_b_ab_apply {α : Type} {a b : ℕ} (dims : Fin 1 → Fin 2)
    (h : (⟨1, ![b]⟩ : Shape).BroadcastsInDim ⟨2, ![a, b]⟩ dims) (hd : dims 0 = 1)
    (v : (⟨1, ![b]⟩ : Shape).Idx → α) (p : Fin a) (c : Fin b) :
    broadcastInDim ⟨2, ![a, b]⟩ dims h v (ix2 p c) = v (ix1 c) := by
  refine broadcastInDim_apply dims h v (ix2 p c) (ix1 c) fun ax => ?_
  match ax with
  | ⟨0, _⟩ =>
    show c.val = if b = 1 then 0 else (ix2 p c (dims 0)).val
    rw [hd]
    show c.val = if b = 1 then 0 else c.val
    split
    · have := c.isLt; omega
    · rfl

end Cert.LibHostMatmulNN

end
-- ==== Proof.LibHostKeepdims.lean ====
/-
  Keepdims layouts of a host program, and row maxima, read at an index given by coordinates.

  `x - x.max(axis=1, keepdims=True)` over a matrix `[a, b]` is, in a host program, a reduction `[a, b] → [a]`, a
  `broadcast_in_dim` `[a] → [a, 1]` (the kept axis) and another `[a, 1] → [a, b]` (the subtraction's broadcast); a
  vector of per-column values `[b]` meets the matrix through `[b] → [1, b] → [a, b]`. Read at `(p, c)` the first
  composite is the operand at row `p`, the second the operand at column `c`. The four steps are the first four lemmas;
  a rank-0 operand broadcast to any shape is its one element everywhere. Then the two host reductions along the rows
  (the sum, at the ideal values, and the maximum, a fold of `max` in any order), the kernel's lane maximum along the
  rows in the same words, and the kernel's cast `[a, 1] → [a]` that drops a kept axis again.
  The `dims` of a `broadcast_in_dim` are a variable; the lemmas ask only which result axis each operand axis is sent to.
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- A vector `[a]` broadcast to the column `[a, 1]` reads, at `(p, u)`, the vector at `p`. -/
theorem broadcastInDim_a_a1_apply {a : ℕ} (dims : Fin 1 → Fin 2)
    (h : (⟨1, ![a]⟩ : Shape).BroadcastsInDim ⟨2, ![a, 1]⟩ dims) (hd : dims 0 = 0)
    (v : (⟨1, ![a]⟩ : Shape).Idx → α) (p : Fin a) (u : Fin 1) :
    broadcastInDim ⟨2, ![a, 1]⟩ dims h v (ix2 p u) = v (ix1 p) := by
  refine broadcastInDim_apply dims h v (ix2 p u) (ix1 p) fun ax => ?_
  match ax with
  | ⟨0, _⟩ =>
    show p.val = if a = 1 then 0 else (ix2 p u (dims 0)).val
    rw [hd]
    show p.val = if a = 1 then 0 else p.val
    split
    · have := p.isLt; omega
    · rfl

/-- A column `[a, 1]` broadcast to `[a, b]` reads, at `(p, c)`, the column at row `p`. -/
theorem broadcastInDim_a1_ab_apply {a b : ℕ} (dims : Fin 2 → Fin 2)
    (h : (⟨2, ![a, 1]⟩ : Shape).BroadcastsInDim ⟨2, ![a, b]⟩ dims) (hd : dims 0 = 0)
    (v : (⟨2, ![a, 1]⟩ : Shape).Idx → α) (p : Fin a) (c : Fin b) :
    broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else (ix2 p c (dims 0)).val
    rw [hd]
    show p.val = if a = 1 then 0 else p.val
    split
    · have := p.isLt; omega
    · rfl
  | ⟨1, _⟩ => rfl

/-- A vector `[b]` broadcast to the row `[1, b]` reads, at `(u, c)`, the vector at `c`. -/
theorem broadcastInDim_b_1b_apply {b : ℕ} (dims : Fin 1 → Fin 2)
    (h : (⟨1, ![b]⟩ : Shape).BroadcastsInDim ⟨2, ![1, b]⟩ dims) (hd : dims 0 = 1)
    (v : (⟨1, ![b]⟩ : Shape).Idx → α) (u : Fin 1) (c : Fin b) :
    broadcastInDim ⟨2, ![1, b]⟩ dims h v (ix2 u c) = v (ix1 c) := by
  refine broadcastInDim_apply dims h v (ix2 u c) (ix1 c) fun ax => ?_
  match ax with
  | ⟨0, _⟩ =>
    show c.val = if b = 1 then 0 else (ix2 u c (dims 0)).val
    rw [hd]
    show c.val = if b = 1 then 0 else c.val
    split
    · have := c.isLt; omega
    · rfl

/-- A row `[1, b]` broadcast to `[a, b]` reads, at `(p, c)`, the row at column `c`. -/
theorem broadcastInDim_1b_ab_apply {a b : ℕ} (dims : Fin 2 → Fin 2)
    (h : (⟨2, ![1, b]⟩ : Shape).BroadcastsInDim ⟨2, ![a, b]⟩ dims) (hd : dims 1 = 1)
    (v : (⟨2, ![1, b]⟩ : Shape).Idx → α) (p : Fin a) (c : Fin b) :
    broadcastInDim ⟨2, ![a, b]⟩ dims h v (ix2 p c) = v (ix2 (0 : Fin 1) c) := by
  refine broadcastInDim_apply dims h v (ix2 p c) (ix2 (0 : Fin 1) c) fun ax => ?_
  match ax with
  | ⟨0, _⟩ => rfl
  | ⟨1, _⟩ =>
    show c.val = if b = 1 then 0 else (ix2 p c (dims 1)).val
    rw [hd]
    show c.val = if b = 1 then 0 else c.val
    split
    · have := c.isLt; omega
    · rfl

/-- A rank-0 operand broadcast to any shape reads its one element everywhere. -/
theorem broadcastInDim_scalar_apply {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 fun ax => ax.elim0

/-- A column `[a, 1]` cast to the vector `[a]` reads, at `i`, the column at row `i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Layout

/-- The host's sum of an `[a, b]` matrix along its rows, at the ideal values and read at row `r`: the initial value
    plus the sum over the row. -/
theorem hostReduceAdd_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  simp only [Host.reduceAdd, Ideal.hostReduceAdd_def]
  rw [Ideal.hostReduceAdd_single h' h]
  refine congrArg (_ + ·) (Finset.sum_congr rfl fun k _ => congrArg x (funext fun ax => Fin.ext ?_))
  match ax with
  | ⟨0, _⟩ => rfl
  | ⟨1, _⟩ => rfl

/-- The host's maximum of an `[a, b]` matrix along its rows, read at row `r`: the fold of `max`, from the initial
    value, over the row, in any order. -/
theorem hostReduce_max_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun k => x (ix2 r k)) := by
  refine (Host.reduce_eq_fold_single (FloatOps.maximumf (F := Ideal) (φ := φ)) x init h' h hu (ix1 r)).trans ?_
  refine congrArg (Finset.fold _ _ · _) (funext fun k => congrArg x (funext fun ax => Fin.ext ?_))
  match ax with
  | ⟨0, _⟩ => rfl
  | ⟨1, _⟩ => rfl

/-- A kernel's lane maximum of an `[a, b]` matrix along its rows, at the ideal values and read at row `r`: the fold of
    `max`, from the accumulator's value, over the row. -/
theorem multiReduction_maximumf_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (Finset.fold _ _ · _) (funext fun k => congrArg src (funext fun ax => Fin.ext ?_))
  match ax with
  | ⟨0, _⟩ => rfl
  | ⟨1, _⟩ => rfl

end Idealize.ShloMosaic.ValueIdx

end
-- ==== Proof.HostLayer.lean ====
/-
  One layer of the network as a host program computes it on all `M` rows at once, read at a row and a column.

  The host transposes the weight matrix `W` `[N, K]` to `[K, N]`, takes the product of the activations `H` `[M, K]` with
  it, adds the bias — a vector `[N]` laid out as a row `[1, N]` and spread over the `M` rows —, applies the hyperbolic
  tangent, and rescales by two more vectors spread the same way. At row `r` and column `j` that is the layer of
  Mlp.lean on row `r` of `H`. A host clip spreads the two scalar bounds over the operand's shape. The head, spelt by
  the host as `1 / (1 + exp (-y))` with the float word of 1.0 for both ones, is the logistic function of Mlp.lean.
-/
import proofs.«134463_j65481071410252_1_alg».proof.Proof.Mlp
import proofs.«134463_j65481071410252_1_alg».proof.Proof.LibHostMatmulNN
import proofs.«134463_j65481071410252_1_alg».proof.Proof.LibHostKeepdims

noncomputable section

open scoped BigOperators

namespace Cert.HostLayer

open Idealize.ShloMosaic Idealize.ShloMosaic.ValueIdx Cert.Mlp

variable {M K N : ℕ}

/-- A host array held to [-5, 5] entry by entry: the maximum with the scalar -5.0 spread over its shape, then the
    minimum with the scalar 5.0 spread the same way. -/
def hclip {s : Shape} (hbc : (⟨0, ![]⟩ : Shape).BroadcastsInDim s ![]) (v : FVec Ideal s .f32) : FVec Ideal s .f32 :=
  minimumf (broadcastInDim s ![] hbc (id (constant (F := Ideal) ⟨0, ![]⟩ .f32 0x40A00000#32)))
    (maximumf (broadcastInDim s ![] hbc (id (constant (F := Ideal) ⟨0, ![]⟩ .f32 0xC0A00000#32))) v)

/-- Entry by entry that is the clip of Mlp.lean. -/
theorem hclip_apply {s : Shape} (hbc : (⟨0, ![]⟩ : Shape).BroadcastsInDim s ![]) (v : FVec Ideal s .f32) (i : s.Idx) :
    hclip hbc v i = clip (v i) := by
  show min (broadcastInDim s ![] hbc (id (constant (F := Ideal) ⟨0, ![]⟩ .f32 0x40A00000#32)) i)
    (max (broadcastInDim s ![] hbc (id (constant (F := Ideal) ⟨0, ![]⟩ .f32 0xC0A00000#32)) i) (v i)) = _
  rw [broadcastInDim_scalar_apply, broadcastInDim_scalar_apply]
  rfl

/-- A vector `[N]` laid out as a row and spread over `M` rows. -/
def spread (h1 : (⟨1, ![N]⟩ : Shape).BroadcastsInDim ⟨2, ![1, N]⟩ ![1])
    (h2 : (⟨2, ![1, N]⟩ : Shape).BroadcastsInDim ⟨2, ![M, N]⟩ ![0, 1]) (v : FVec Ideal ⟨1, ![N]⟩ .f32) :
    FVec Ideal ⟨2, ![M, N]⟩ .f32 :=
  broadcastInDim ⟨2, ![M, N]⟩ ![0, 1] h2 (broadcastInDim ⟨2, ![1, N]⟩ ![1] h1 v)

/-- It reads, at `(r, j)`, the vector at `j`. -/
theorem spread_apply (h1 : (⟨1, ![N]⟩ : Shape).BroadcastsInDim ⟨2, ![1, N]⟩ ![1])
    (h2 : (⟨2, ![1, N]⟩ : Shape).BroadcastsInDim ⟨2, ![M, N]⟩ ![0, 1]) (v : FVec Ideal ⟨1, ![N]⟩ .f32)
    (r : Fin M) (j : Fin N) : spread h1 h2 v (ix2 r j) = v (ix1 j) := by
  unfold spread
  rw [broadcastInDim_1b_ab_apply ![0, 1] h2 rfl _ r j, broadcastInDim_b_1b_apply ![1] h1 rfl v (0 : Fin 1) j]

/-- One layer on all rows: `tanh (H · Wᵀ + b) · s + t`, the three vectors spread over the rows. -/
def hlayer (d : DotDims ⟨2, ![M, K]⟩ ⟨2, ![K, N]⟩ ⟨2, ![M, N]⟩)
    (ht : (⟨2, ![N, K]⟩ : Shape).Transposes [1, 0] ⟨2, ![K, N]⟩)
    (h1 : (⟨1, ![N]⟩ : Shape).BroadcastsInDim ⟨2, ![1, N]⟩ ![1])
    (h2 : (⟨2, ![1, N]⟩ : Shape).BroadcastsInDim ⟨2, ![M, N]⟩ ![0, 1])
    (H : FVec Ideal ⟨2, ![M, K]⟩ .f32) (W : FVec Ideal ⟨2, ![N, K]⟩ .f32) (b s t : FVec Ideal ⟨1, ![N]⟩ .f32) :
    FVec Ideal ⟨2, ![M, N]⟩ .f32 :=
  addf (mulf (Host.tanh (addf (Host.dotGeneral d none H (transpose ⟨2, ![K, N]⟩ [1, 0] W ht)) (spread h1 h2 b)))
    (spread h1 h2 s)) (spread h1 h2 t)

/-- At row `r` and column `j` the host layer is the layer of Mlp.lean on row `r` of `H`. -/
theorem hlayer_apply (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (ht : (⟨2, ![N, K]⟩ : Shape).Transposes [1, 0] ⟨2, ![K, N]⟩)
    (h1 : (⟨1, ![N]⟩ : Shape).BroadcastsInDim ⟨2, ![1, N]⟩ ![1])
    (h2 : (⟨2, ![1, N]⟩ : Shape).BroadcastsInDim ⟨2, ![M, N]⟩ ![0, 1])
    (H : FVec Ideal ⟨2, ![M, K]⟩ .f32) (W : FVec Ideal ⟨2, ![N, K]⟩ .f32) (b s t : FVec Ideal ⟨1, ![N]⟩ .f32)
    (r : Fin M) (j : Fin N) :
    hlayer d ht h1 h2 H W b s t (ix2 r j)
      = layer (fun k => H (ix2 r k)) (fun j k => W (ix2 j k)) (fun j => b (ix1 j)) (fun j => s (ix1 j))
          (fun j => t (ix1 j)) j := by
  have hm := Cert.LibHostMatmulNN.hostDot_nn_apply d hlc hrc hln hrn hlb hrb none H
    (transpose ⟨2, ![K, N]⟩ [1, 0] W ht) r j
  have e : ∀ k : Fin K, transpose ⟨2, ![K, N]⟩ [1, 0] W ht (ix2 k j) = W (ix2 j k) := fun k =>
    transpose_ix2_apply W ht k j
  show Ideal.tanh (Host.dotGeneral d none H (transpose ⟨2, ![K, N]⟩ [1, 0] W ht) (ix2 r j) + spread h1 h2 b (ix2 r j))
      * spread h1 h2 s (ix2 r j) + spread h1 h2 t (ix2 r j) = _
  rw [hm, spread_apply, spread_apply, spread_apply]
  unfold layer
  simp only [e]

/-- The head on all rows, as the host spells the logistic function: `1 / (1 + exp (-(H · Wᵀ + b)))`, each one the
    scalar 1.0 spread over the result's shape. -/
def hhead (d : DotDims ⟨2, ![M, K]⟩ ⟨2, ![K, 1]⟩ ⟨2, ![M, 1]⟩)
    (ht : (⟨2, ![1, K]⟩ : Shape).Transposes [1, 0] ⟨2, ![K, 1]⟩)
    (h1 : (⟨1, ![1]⟩ : Shape).BroadcastsInDim ⟨2, ![1, 1]⟩ ![1])
    (h2 : (⟨2, ![1, 1]⟩ : Shape).BroadcastsInDim ⟨2, ![M, 1]⟩ ![0, 1])
    (h0 : (⟨0, ![]⟩ : Shape).BroadcastsInDim ⟨2, ![M, 1]⟩ ![])
    (H : FVec Ideal ⟨2, ![M, K]⟩ .f32) (W : FVec Ideal ⟨2, ![1, K]⟩ .f32) (b : FVec Ideal ⟨1, ![1]⟩ .f32) :
    FVec Ideal ⟨2, ![M, 1]⟩ .f32 :=
  Host.divf (broadcastInDim ⟨2, ![M, 1]⟩ ![] h0 (constant (F := Ideal) ⟨0, ![]⟩ .f32 0x3F800000#32))
    (addf (broadcastInDim ⟨2, ![M, 1]⟩ ![] h0 (constant (F := Ideal) ⟨0, ![]⟩ .f32 0x3F800000#32))
      (Host.exp (Host.negf (addf (Host.dotGeneral d none H (transpose ⟨2, ![K, 1]⟩ [1, 0] W ht)) (spread h1 h2 b)))))

/-- At row `r` (and the one column) the host head is the head of Mlp.lean on row `r` of `H`. -/
theorem hhead_apply (d : DotDims ⟨2, ![M, K]⟩ ⟨2, ![K, 1]⟩ ⟨2, ![M, 1]⟩)
    (hlc : d.lhsContracting = [1]) (hrc : d.rhsContracting = [0])
    (hln : d.lhsNonContracting = [0]) (hrn : d.rhsNonContracting = [1])
    (hlb : d.lhsBatch = []) (hrb : d.rhsBatch = [])
    (ht : (⟨2, ![1, K]⟩ : Shape).Transposes [1, 0] ⟨2, ![K, 1]⟩)
    (h1 : (⟨1, ![1]⟩ : Shape).BroadcastsInDim ⟨2, ![1, 1]⟩ ![1])
    (h2 : (⟨2, ![1, 1]⟩ : Shape).BroadcastsInDim ⟨2, ![M, 1]⟩ ![0, 1])
    (h0 : (⟨0, ![]⟩ : Shape).BroadcastsInDim ⟨2, ![M, 1]⟩ ![])
    (H : FVec Ideal ⟨2, ![M, K]⟩ .f32) (W : FVec Ideal ⟨2, ![1, K]⟩ .f32) (b : FVec Ideal ⟨1, ![1]⟩ .f32)
    (r : Fin M) (u : Fin 1) :
    hhead d ht h1 h2 h0 H W b (ix2 r u)
      = head (fun k => H (ix2 r k)) (fun k => W (ix2 (0 : Fin 1) k)) (b (ix1 (0 : Fin 1))) := by
  obtain rfl : u = 0 := Subsingleton.elim _ _
  have hm := Cert.LibHostMatmulNN.hostDot_nn_apply d hlc hrc hln hrn hlb hrb none H
    (transpose ⟨2, ![K, 1]⟩ [1, 0] W ht) r (0 : Fin 1)
  have e : ∀ k : Fin K, transpose ⟨2, ![K, 1]⟩ [1, 0] W ht (ix2 k (0 : Fin 1)) = W (ix2 (0 : Fin 1) k) := fun k =>
    transpose_ix2_apply W ht k (0 : Fin 1)
  show Ideal.div (broadcastInDim ⟨2, ![M, 1]⟩ ![] h0 (constant (F := Ideal) ⟨0, ![]⟩ .f32 0x3F800000#32) (ix2 r (0 : Fin 1)))
      (broadcastInDim ⟨2, ![M, 1]⟩ ![] h0 (constant (F := Ideal) ⟨0, ![]⟩ .f32 0x3F800000#32) (ix2 r (0 : Fin 1))
        + Ideal.exp (-(Host.dotGeneral d none H (transpose ⟨2, ![K, 1]⟩ [1, 0] W ht) (ix2 r (0 : Fin 1))
          + spread h1 h2 b (ix2 r (0 : Fin 1))))) = _
  rw [broadcastInDim_scalar_apply, hm, spread_apply]
  show Ideal.div (Ideal.ofBits .f32 0x3F800000#32) (Ideal.ofBits .f32 0x3F800000#32 + Ideal.exp (-_)) = _
  rw [logistic_spelt]
  unfold head
  simp only [e]

end Cert.HostLayer

end
-- ==== Proof.RefValue.lean ====
/-
  The reference's result is `G` of Mlp.lean: the network applied to every row of the input.

  The reference computes the six layers and the head on all 1048576 rows at once, each layer in the form of
  HostLayer.lean (the weight matrix transposed, `dot_general`, the bias, the scale and the shift each a vector laid
  out as a row and spread over the rows), the weights and the bias of every layer but the first passed through a clip
  first, and the head spelt as `1 / (1 + exp (-y))`. Each layer's output stage is, by unfolding the stages between,
  the host layer of the stage before; so at row `r` the last stage is the network on row `r` of the input.
-/
import proofs.«134463_j65481071410252_1_alg».proof.Proof.Gen.ReferenceIdeal.Read
import proofs.«134463_j65481071410252_1_alg».proof.Proof.HostLayer

noncomputable section

namespace Cert.ReferenceIdeal.RefValue

open Cert.ReferenceIdeal Cert.ReferenceIdeal.Gen Cert.ReferenceIdeal.Read Cert.HostLayer Cert.Mlp
open Idealize.ShloMosaic Idealize.ShloMosaic.ValueIdx

variable (x0 : FVec Ideal S1048576x8 .f32) (x1 : FVec Ideal S16x8 .f32) (x2 x3 x4 : FVec Ideal S16 .f32)
  (x5 : FVec Ideal S16x16 .f32) (x6 x7 x8 : FVec Ideal S16 .f32)
  (x9 : FVec Ideal S12x16 .f32) (x10 x11 x12 : FVec Ideal S12 .f32)
  (x13 : FVec Ideal S8x12 .f32) (x14 x15 x16 : FVec Ideal S8 .f32)
  (x17 : FVec Ideal S4x8 .f32) (x18 x19 x20 : FVec Ideal S4 .f32)
  (x21 : FVec Ideal S4x4 .f32) (x22 x23 x24 : FVec Ideal S4 .f32)
  (x25 : FVec Ideal S1x4 .f32) (x26 : FVec Ideal S1 .f32)

/-! ## The clipped weights and biases -/

theorem w1_eq : val_main_v12 (F := Ideal) x5 = hclip bcast_S_S16x16 x5 := rfl
theorem b1_eq : val_main_v13 (F := Ideal) x6 = hclip bcast_S_S16 x6 := rfl
theorem w2_eq : val_main_v26 (F := Ideal) x9 = hclip bcast_S_S12x16 x9 := rfl
theorem b2_eq : val_main_v27 (F := Ideal) x10 = hclip bcast_S_S12 x10 := rfl
theorem w3_eq : val_main_v40 (F := Ideal) x13 = hclip bcast_S_S8x12 x13 := rfl
theorem b3_eq : val_main_v41 (F := Ideal) x14 = hclip bcast_S_S8 x14 := rfl
theorem w4_eq : val_main_v54 (F := Ideal) x17 = hclip bcast_S_S4x8 x17 := rfl
theorem b4_eq : val_main_v55 (F := Ideal) x18 = hclip bcast_S_S4 x18 := rfl
theorem w5_eq : val_main_v68 (F := Ideal) x21 = hclip bcast_S_S4x4 x21 := rfl
theorem b5_eq : val_main_v69 (F := Ideal) x22 = hclip bcast_S_S4 x22 := rfl

/-! ## Each layer's output stage is the host layer of the stage before -/

theorem l0_eq : val_main_v11 (F := Ideal) x0 x1 x2 x3 x4
    = hlayer dot_S1048576x8_S8x16_S1048576x16_1_0_0_1_n_n transposes_S16x8_S8x16_1_0 bcast_S16_S1x16_1
        bcast_S1x16_S1048576x16_0_1 x0 x1 x2 x3 x4 := rfl

theorem l1_eq : val_main_v25 (F := Ideal) x0 x1 x2 x3 x4 x5 x6 x7 x8
    = hlayer dot_S1048576x16_S16x16_S1048576x16_1_0_0_1_n_n transposes_S16x16_S16x16_1_0 bcast_S16_S1x16_1
        bcast_S1x16_S1048576x16_0_1 (val_main_v11 (F := Ideal) x0 x1 x2 x3 x4) (val_main_v12 (F := Ideal) x5)
        (val_main_v13 (F := Ideal) x6) x7 x8 := rfl

theorem l2_eq : val_main_v39 (F := Ideal) x0 x1 x2 x3 x4 x5 x6 x7 x8 x9 x10 x11 x12
    = hlayer dot_S1048576x16_S16x12_S1048576x12_1_0_0_1_n_n transposes_S12x16_S16x12_1_0 bcast_S12_S1x12_1
        bcast_S1x12_S1048576x12_0_1 (val_main_v25 (F := Ideal) x0 x1 x2 x3 x4 x5 x6 x7 x8) (val_main_v26 (F := Ideal) x9)
        (val_main_v27 (F := Ideal) x10) x11 x12 := rfl

theorem l3_eq : val_main_v53 (F := Ideal) x0 x1 x2 x3 x4 x5 x6 x7 x8 x9 x10 x11 x12 x13 x14 x15 x16
    = hlayer dot_S1048576x12_S12x8_S1048576x8_1_0_0_1_n_n transposes_S8x12_S12x8_1_0 bcast_S8_S1x8_1
        bcast_S1x8_S1048576x8_0_1 (val_main_v39 (F := Ideal) x0 x1 x2 x3 x4 x5 x6 x7 x8 x9 x10 x11 x12)
        (val_main_v40 (F := Ideal) x13) (val_main_v41 (F := Ideal) x14) x15 x16 := rfl

theorem l4_eq : val_main_v67 (F := Ideal) x0 x1 x2 x3 x4 x5 x6 x7 x8 x9 x10 x11 x12 x13 x14 x15 x16 x17 x18 x19 x20
    = hlayer dot_S1048576x8_S8x4_S1048576x4_1_0_0_1_n_n transposes_S4x8_S8x4_1_0 bcast_S4_S1x4_1
        bcast_S1x4_S1048576x4_0_1 (val_main_v53 (F := Ideal) x0 x1 x2 x3 x4 x5 x6 x7 x8 x9 x10 x11 x12 x13 x14 x15 x16)
        (val_main_v54 (F := Ideal) x17) (val_main_v55 (F := Ideal) x18) x19 x20 := rfl

theorem l5_eq : val_main_v81 (F := Ideal) x0 x1 x2 x3 x4 x5 x6 x7 x8 x9 x10 x11 x12 x13 x14 x15 x16 x17 x18 x19 x20 x21 x22 x23 x24
    = hlayer dot_S1048576x4_S4x4_S1048576x4_1_0_0_1_n_n transposes_S4x4_S4x4_1_0 bcast_S4_S1x4_1
        bcast_S1x4_S1048576x4_0_1
        (val_main_v67 (F := Ideal) x0 x1 x2 x3 x4 x5 x6 x7 x8 x9 x10 x11 x12 x13 x14 x15 x16 x17 x18 x19 x20)
        (val_main_v68 (F := Ideal) x21) (val_main_v69 (F := Ideal) x22) x23 x24 := rfl

theorem out_eq : val_main_v92 (F := Ideal) x0 x1 x2 x3 x4 x5 x6 x7 x8 x9 x10 x11 x12 x13 x14 x15 x16 x17 x18 x19 x20 x21 x22 x23 x24 x25 x26
    = hhead dot_S1048576x4_S4x1_S1048576x1_1_0_0_1_n_n transposes_S1x4_S4x1_1_0 bcast_S1_S1x1_1
        bcast_S1x1_S1048576x1_0_1 bcast_S_S1048576x1
        (val_main_v81 (F := Ideal) x0 x1 x2 x3 x4 x5 x6 x7 x8 x9 x10 x11 x12 x13 x14 x15 x16 x17 x18 x19 x20 x21 x22 x23 x24)
        x25 x26 := rfl

/-! ## The last stage at a row, and as a whole -/

/-- At row `r` the reference's last stage is the network on row `r` of the input. -/
theorem out_apply (r : Fin 1048576) (u : Fin 1) :
    val_main_v92 (F := Ideal) x0 x1 x2 x3 x4 x5 x6 x7 x8 x9 x10 x11 x12 x13 x14 x15 x16 x17 x18 x19 x20 x21 x22 x23 x24 x25 x26 (ix2 r u)
      = row (fun k => x0 (ix2 r k))
          (fun j k => x1 (ix2 j k)) (fun j => x2 (ix1 j)) (fun j => x3 (ix1 j)) (fun j => x4 (ix1 j))
          (fun j k => x5 (ix2 j k)) (fun j => x6 (ix1 j)) (fun j => x7 (ix1 j)) (fun j => x8 (ix1 j))
          (fun j k => x9 (ix2 j k)) (fun j => x10 (ix1 j)) (fun j => x11 (ix1 j)) (fun j => x12 (ix1 j))
          (fun j k => x13 (ix2 j k)) (fun j => x14 (ix1 j)) (fun j => x15 (ix1 j)) (fun j => x16 (ix1 j))
          (fun j k => x17 (ix2 j k)) (fun j => x18 (ix1 j)) (fun j => x19 (ix1 j)) (fun j => x20 (ix1 j))
          (fun j k => x21 (ix2 j k)) (fun j => x22 (ix1 j)) (fun j => x23 (ix1 j)) (fun j => x24 (ix1 j))
          (fun k => x25 (ix2 (0 : Fin 1) k)) (x26 (ix1 (0 : Fin 1))) := by
  rw [out_eq, hhead_apply _ rfl rfl rfl rfl rfl rfl]
  unfold row clipped
  simp only [l5_eq, l4_eq, l3_eq, l2_eq, l1_eq, l0_eq, w1_eq, b1_eq, w2_eq, b2_eq, w3_eq, b3_eq, w4_eq, b4_eq, w5_eq, b5_eq,
    hlayer_apply dot_S1048576x4_S4x4_S1048576x4_1_0_0_1_n_n rfl rfl rfl rfl rfl rfl,
    hlayer_apply dot_S1048576x8_S8x4_S1048576x4_1_0_0_1_n_n rfl rfl rfl rfl rfl rfl,
    hlayer_apply dot_S1048576x12_S12x8_S1048576x8_1_0_0_1_n_n rfl rfl rfl rfl rfl rfl,
    hlayer_apply dot_S1048576x16_S16x12_S1048576x12_1_0_0_1_n_n rfl rfl rfl rfl rfl rfl,
    hlayer_apply dot_S1048576x16_S16x16_S1048576x16_1_0_0_1_n_n rfl rfl rfl rfl rfl rfl,
    hlayer_apply dot_S1048576x8_S8x16_S1048576x16_1_0_0_1_n_n rfl rfl rfl rfl rfl rfl, hclip_apply]

/-- The reference's last stage is `G` of its arguments. -/
theorem out_eq_G :
    val_main_v92 (F := Ideal) x0 x1 x2 x3 x4 x5 x6 x7 x8 x9 x10 x11 x12 x13 x14 x15 x16 x17 x18 x19 x20 x21 x22 x23 x24 x25 x26
      = G x0 x1 x2 x3 x4 x5 x6 x7 x8 x9 x10 x11 x12 x13 x14 x15 x16 x17 x18 x19 x20 x21 x22 x23 x24 x25 x26 := by
  funext i
  obtain ⟨r, u, rfl⟩ : ∃ (r : Fin 1048576) (u : Fin 1), i = ix2 r u := ⟨i 0, i 1, eq_ix2 i⟩
  rw [out_apply]
  rfl

end Cert.ReferenceIdeal.RefValue

end
-- ==== Proof.lean ====
/-
  A Pallas kernel for a small perceptron against its plain reference: both compute, for every row `x` of a
  `[1048576, 8]` input, six layers `h ↦ tanh (h · Wᵀ + b) · s + t` of widths 8 → 16 → 16 → 12 → 8 → 4 → 4 — the weights
  and the bias of every layer but the first held to [-5, 5] — and the head `logistic (h · Whᵀ + bh)`, one number a row.

  The kernel walks the rows in 128 blocks of 8192, keeping the weights resident, and applies the whole network to a
  block; the reference applies each layer to all rows at once. A row of the result depends on the same row of the
  input only, so both results are one function `G` of the arguments (Proof/Mlp.lean): the kernel's by reading each
  block's store at a row (Proof/KernelPayload.lean) and placing the blocks in the array (Proof/KernelValue.lean), the
  reference's by reading its last operation at a row (Proof/RefValue.lean). The two differ in how a matrix product is
  scheduled and how the bias is laid out, which leaves an extended-real sum and its summands unchanged, and in the
  head: the kernel applies the logistic function as one operation, the reference spells `1 / (1 + exp (-y))`, which is
  that function's definition on the extended reals. No law used here needs a finite operand, so the precondition is
  never opened.

  The frames of the two kernel programs are the frame certificates of Proof/KernelFrame.lean and
  Proof/KernelIdealFrame.lean; the reference's frame is its run with the result dropped. The idealized kernel is the
  kernel itself (no rewrite was applied), so `preserves` holds trivially.
-/
import proofs.«134463_j65481071410252_1_alg».proof.Defs
import proofs.«134463_j65481071410252_1_alg».proof.Proof.Gen.Kernel
import proofs.«134463_j65481071410252_1_alg».proof.Proof.Gen.KernelIdeal
import proofs.«134463_j65481071410252_1_alg».proof.Proof.Gen.ReferenceIdeal
import proofs.«134463_j65481071410252_1_alg».proof.Proof.Gen.Pre_finite_inputs
import proofs.«134463_j65481071410252_1_alg».proof.Proof.Gen.ReferenceIdeal.Run
import proofs.«134463_j65481071410252_1_alg».proof.Proof.Gen.ReferenceIdeal.Read
import proofs.«134463_j65481071410252_1_alg».proof.Proof.KernelFrame
import proofs.«134463_j65481071410252_1_alg».proof.Proof.KernelIdealFrame
import proofs.«134463_j65481071410252_1_alg».proof.Proof.KernelValue
import proofs.«134463_j65481071410252_1_alg».proof.Proof.RefValue
import Idealize.ShloMosaic.Adequacy
import Idealize.ShloMosaic.Init

noncomputable section

namespace Cert.Proof

open Idealize.ShloMosaic Idealize.SL.Sem

/-- The kernel terminates without a fault and leaves its arguments as launched. -/
theorem frame_k : Cert.frame_Kernel := fun m ρ _ => Cert.Kernel.GenP.frame m ρ

/-- So does the idealized kernel. -/
theorem frame_ki : Cert.frame_KernelIdeal := fun m ρ _ => Cert.KernelIdeal.GenP.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel: nothing was rewritten. -/
theorem preserves : Cert.preserves_Kernel_KernelIdeal := trivial

/-- From memories that agree on the arguments the idealized kernel and the reference both end with the result array
    `G` of those arguments: the kernel's run names it (Proof/KernelValue.lean), the reference's last operation is it
    (Proof/RefValue.lean). -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v92_eq, Cert.ReferenceIdeal.RefValue.out_eq_G]
  obtain ⟨e0, e1, e2, e3, e4, e5, e6, e7, e8, e9, e10, e11, e12, e13, e14, e15, e16, e17, e18, e19, e20, e21, e22, e23, e24, e25, e26⟩ := hagree c
  rw [e0, e1, e2, e3, e4, e5, e6, e7, e8, e9, e10, e11, e12, e13, e14, e15, e16, e17, e18, e19, e20, e21, e22, e23, e24, e25, e26]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
